-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1600x1024 : Shape := ⟨2, ![1600, 1024]⟩
abbrev S1600 : Shape := ⟨1, ![1600]⟩
abbrev S1024x2048 : Shape := ⟨2, ![1024, 2048]⟩
abbrev S1024 : Shape := ⟨1, ![1024]⟩
abbrev S1024x1024 : Shape := ⟨2, ![1024, 1024]⟩
abbrev S1600x3072 : Shape := ⟨2, ![1600, 3072]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1600x1024 : S_.BroadcastsInDim S1600x1024 (![] : Fin 0 → Fin S1600x1024.rank)
  reducesTo_S1600x1024_S_d0_1 : S1600x1024.ReducesTo [0, 1] S_
  bcast_S_S1600 : S_.BroadcastsInDim S1600 (![] : Fin 0 → Fin S1600.rank)
  reducesTo_S1600_S_d0 : S1600.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1600x3072 : S_.BroadcastsInDim S1600x3072 (![] : Fin 0 → Fin S1600x3072.rank)
  reducesTo_S1600x3072_S_d0_1 : S1600x3072.ReducesTo [0, 1] S_

variable [Facts]

def fn_part2 {F : FTy → Type} [FloatOps F] (main_arg7 : FVec F S1600x3072 .f32) (main_arg8 : FVec F S1600 .f32) (main_v33 : IVec S_ 1) : IVec S_ 1 :=
  let main_v34 : FVec F S1600x3072 .f32 := Host.absf main_arg7
  let main_cst_12 : FVec F S_ .f32 := constant S_ .f32 0x7F800000#32
  let main_v35 : FVec F S1600x3072 .f32 := broadcastInDim S1600x3072 ![] bcast_S_S1600x3072 main_cst_12
  let main_v36 : IVec S1600x3072 1 := cmpf .olt main_v34 main_v35
  let main_c_13 : IVec S_ 1 := constantI S_ 1 1#1
  let main_v37 : IVec S_ 1 := (fun x v => Host.reduce IntOp.andi x v reducesTo_S1600x3072_S_d0_1 h_S_) main_v36 main_c_13
  let main_v38 : IVec S_ 1 := andi main_v33 main_v37
  let main_v39 : FVec F S1600 .f32 := Host.absf main_arg8
  let main_cst_14 : FVec F S_ .f32 := constant S_ .f32 0x7F800000#32
  let main_v40 : FVec F S1600 .f32 := broadcastInDim S1600 ![] bcast_S_S1600 main_cst_14
  let main_v41 : IVec S1600 1 := cmpf .olt main_v39 main_v40
  let main_c_15 : IVec S_ 1 := constantI S_ 1 1#1
  let main_v42 : IVec S_ 1 := (fun x v => Host.reduce IntOp.andi x v reducesTo_S1600_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1600x3072 .f32) (main_arg8 : FVec F S1600 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S1600x1024 .f32) (main_arg2 : FVec F S1600 .f32) (main_arg3 : FVec F S1024x2048 .f32) (main_arg4 : FVec F S1024 .f32) (main_arg5 : FVec F S1024x1024 .f32) (main_arg6 : FVec F S1024 .f32) (main_arg7 : FVec F S1600x3072 .f32) (main_arg8 : FVec F S1600 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1600x1024 .f32 := Host.absf main_arg1
  let main_cst_0 : FVec F S_ .f32 := constant S_ .f32 0x7F800000#32
  let main_v5 : FVec F S1600x1024 .f32 := broadcastInDim S1600x1024 ![] bcast_S_S1600x1024 main_cst_0
  let main_v6 : IVec S1600x1024 1 := cmpf .olt main_v4 main_v5
  let main_c_1 : IVec S_ 1 := constantI S_ 1 1#1
  let main_v7 : IVec S_ 1 := (fun x v => Host.reduce IntOp.andi x v reducesTo_S1600x1024_S_d0_1 h_S_) main_v6 main_c_1
  let main_v8 : IVec S_ 1 := andi main_v3 main_v7
  let main_v9 : FVec F S1600 .f32 := Host.absf main_arg2
  let main_cst_2 : FVec F S_ .f32 := constant S_ .f32 0x7F800000#32
  let main_v10 : FVec F S1600 .f32 := broadcastInDim S1600 ![] bcast_S_S1600 main_cst_2
  let main_v11 : IVec S1600 1 := cmpf .olt main_v9 main_v10
  let main_c_3 : IVec S_ 1 := constantI S_ 1 1#1
  let main_v12 : IVec S_ 1 := (fun x v => Host.reduce IntOp.andi x v reducesTo_S1600_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_v13 main_v16
-- ==== Kernel.lean ====
abbrev S8192x2048 : Shape := ⟨2, ![8192, 2048]⟩
abbrev S1600x1024 : Shape := ⟨2, ![1600, 1024]⟩
abbrev S1600 : Shape := ⟨1, ![1600]⟩
abbrev S1024x2048 : Shape := ⟨2, ![1024, 2048]⟩
abbrev S1024 : Shape := ⟨1, ![1024]⟩
abbrev S1024x1024 : Shape := ⟨2, ![1024, 1024]⟩
abbrev S1600x3072 : Shape := ⟨2, ![1600, 3072]⟩
abbrev S2048x1024 : Shape := ⟨2, ![2048, 1024]⟩
abbrev S3072x1600 : Shape := ⟨2, ![3072, 1600]⟩
abbrev S1x1024 : Shape := ⟨2, ![1, 1024]⟩
abbrev S1x1600 : Shape := ⟨2, ![1, 1600]⟩
abbrev S8192x1600 : Shape := ⟨2, ![8192, 1600]⟩
abbrev S8192x1024 : Shape := ⟨2, ![8192, 1024]⟩
abbrev S256x2048 : Shape := ⟨2, ![256, 2048]⟩
abbrev S256x1600 : Shape := ⟨2, ![256, 1600]⟩
abbrev S256x1024 : Shape := ⟨2, ![256, 1024]⟩
abbrev S2048x1600 : Shape := ⟨2, ![2048, 1600]⟩
abbrev S1024x1600 : Shape := ⟨2, ![1024, 1600]⟩
abbrev S256 : Shape := ⟨1, ![256]⟩
abbrev S256x1 : Shape := ⟨2, ![256, 1]⟩

abbrev nBuf : Space → Nat
  | .hbm => 23
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S1600x1024, .f32⟩
  | .hbm, ⟨2, _⟩ => ⟨S1600, .f32⟩
  | .hbm, ⟨3, _⟩ => ⟨S1024x2048, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1600x3072, .f32⟩
  | .hbm, ⟨8, _⟩ => ⟨S1600, .f32⟩
  | .hbm, ⟨9, _⟩ => ⟨S2048x1024, .f32⟩
  | .hbm, ⟨10, _⟩ => ⟨S2048x1024, .bf16⟩
  | .hbm, ⟨11, _⟩ => ⟨S1024x1024, .f32⟩
  | .hbm, ⟨12, _⟩ => ⟨S1024x1024, .bf16⟩
  | .hbm, ⟨13, _⟩ => ⟨S3072x1600, .f32⟩
  | .hbm, ⟨14, _⟩ => ⟨S3072x1600, .bf16⟩
  | .hbm, ⟨15, _⟩ => ⟨S1600x1024, .bf16⟩
  | .hbm, ⟨16, _⟩ => ⟨S1x1024, .f32⟩
  | .hbm, ⟨17, _⟩ => ⟨S1x1024, .f32⟩
  | .hbm, ⟨18, _⟩ => ⟨S1x1600, .f32⟩
  | .hbm, ⟨19, _⟩ => ⟨S1x1600, .f32⟩
  | .hbm, ⟨20, _⟩ => ⟨S1600x1024, .bf16⟩
  | .hbm, ⟨21, _⟩ => ⟨S8192x1600, .f32⟩
  | .hbm, ⟨22, _⟩ => ⟨S8192x1024, .f32⟩
  | .local _ .vmem, ⟨0, _⟩ => ⟨S1600x1024, .f32⟩
  | .local _ .vmem, ⟨1, _⟩ => ⟨S1024x1024, .bf16⟩
  | .local _ .vmem, ⟨2, _⟩ => ⟨S1x1024, .f32⟩
  | .local _ .vmem, ⟨3, _⟩ => ⟨S1600x1024, .bf16⟩
  | .local _ .vmem, ⟨4, _⟩ => ⟨S256x2048, .f32⟩
  | .local _ .vmem, ⟨5, _⟩ => ⟨S256x2048, .f32⟩
  | .local _ .vmem, ⟨6, _⟩ => ⟨S2048x1024, .bf16⟩
  | .local _ .vmem, ⟨7, _⟩ => ⟨S1x1024, .f32⟩
  | .local _ .vmem, ⟨8, _⟩ => ⟨S1600x1024, .bf16⟩
  | .local _ .vmem, ⟨9, _⟩ => ⟨S1600x1024, .bf16⟩
  | .local _ .vmem, ⟨10, _⟩ => ⟨S1x1600, .f32⟩
  | .local _ .vmem, ⟨11, _⟩ => ⟨S3072x1600, .bf16⟩
  | .local _ .vmem, ⟨12, _⟩ => ⟨S1x1600, .f32⟩
  | .local _ .vmem, ⟨13, _⟩ => ⟨S256x1600, .f32⟩
  | .local _ .vmem, ⟨14, _⟩ => ⟨S256x1600, .f32⟩
  | .local _ .vmem, ⟨15, _⟩ => ⟨S256x1024, .f32⟩
  | .local _ .vmem, ⟨16, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg9_0 : Ref sig .tc := ⟨.vmem, 15, rfl⟩
abbrev cc1_stg9_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev cc1_sem9_0 : DmaSem sig := 15
abbrev cc1_sem9_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1600x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1600x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1600x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1600 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3072x1600 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1600 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1600 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S1024x2048_S2048x1024_1_0 : S1024x2048.Transposes [1, 0] S2048x1024
  bitsLt_bf16_f32 : FTy.bits .bf16 < FTy.bits .f32
  transposes_S1024x1024_S1024x1024_1_0 : S1024x1024.Transposes [1, 0] S1024x1024
  transposes_S1600x3072_S3072x1600_1_0 : S1600x3072.Transposes [1, 0] S3072x1600
  shapeCasts_S1024_S1x1024 : S1024.ShapeCasts S1x1024
  shapeCasts_S1600_S1x1600 : S1600.ShapeCasts S1x1600
  inb_S1600x1024_S1600x1024_0_0 : ∀ a, (![0, 0] : Fin 2 → Nat) a + S1600x1024.size a ≤ S1600x1024.size a
  h_S1600x1024 : 0 < S1600x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1600x1024 : S1x1024.Broadcasts S1600x1024
  packedbf16_S1600x1024_S1600x1024_0_0 : (Rect.unit (s := S1600x1024) ![0, 0] S1600x1024.size inb_S1600x1024_S1600x1024_0_0).PackedRows (EltTy.packing .bf16)
  inb_S256x2048_S256x2048_0_0 : ∀ a, (![0, 0] : Fin 2 → Nat) a + S256x2048.size a ≤ S256x2048.size a
  h_S256x2048 : 0 < S256x2048.numel
  inb_S3072x1600_S3072x1600_0_0 : ∀ a, (![0, 0] : Fin 2 → Nat) a + S3072x1600.size a ≤ S3072x1600.size a
  h_S3072x1600 : 0 < S3072x1600.numel
  shapeCasts_S3072x1600_S3072x1600 : S3072x1600.ShapeCasts S3072x1600
  slices_S3072x1600_o0_0_S2048x1600 : S3072x1600.Slices ![0, 0] S2048x1600
  slices_S3072x1600_o2048_0_S1024x1600 : S3072x1600.Slices ![2048, 0] S1024x1600
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S256x1024 : S1x1024.Broadcasts S256x1024
  shapeCasts_S1600x1024_S1600x1024 : S1600x1024.ShapeCasts S1600x1024
  reduces_S256x1600_S256 : S256x1600.Reduces [1] S256
  shapeCasts_S256_S256x1 : S256.ShapeCasts S256x1
  broadcasts_S256x1_S256x1600 : S256x1.Broadcasts S256x1600
  inb_S1x1600_S1x1600_0_0 : ∀ a, (![0, 0] : Fin 2 → Nat) a + S1x1600.size a ≤ S1x1600.size a
  h_S1x1600 : 0 < S1x1600.numel
  shapeCasts_S1x1600_S1x1600 : S1x1600.ShapeCasts S1x1600
  broadcasts_S1x1600_S256x1600 : S1x1600.Broadcasts S256x1600
  inb_S256x1024_S256x1024_0_0 : ∀ a, (![0, 0] : Fin 2 → Nat) a + S256x1024.size a ≤ S256x1024.size a
  h_S256x1024 : 0 < S256x1024.numel
  inb_S256x1600_S256x1600_0_0 : ∀ a, (![0, 0] : Fin 2 → Nat) a + S256x1600.size a ≤ S256x1600.size a
  h_S256x1600 : 0 < S256x1600.numel
  dot_S1600x1024_S1024x1024_S1600x1024_1_0_0_1_n_n_wf : DotDims.WF S1600x1024 S1024x1024 S1600x1024 [1] [0] [0] [1] [] []
  dot_S256x2048_S2048x1600_S256x1600_1_0_0_1_n_n_wf : DotDims.WF S256x2048 S2048x1600 S256x1600 [1] [0] [0] [1] [] []
  dot_S256x2048_S2048x1024_S256x1024_1_0_0_1_n_n_wf : DotDims.WF S256x2048 S2048x1024 S256x1024 [1] [0] [0] [1] [] []
  dot_S256x1024_S1600x1024_S256x1600_1_1_0_0_n_n_wf : DotDims.WF S256x1024 S1600x1024 S256x1600 [1] [1] [0] [0] [] []
  dot_S256x1600_S1600x1024_S256x1024_1_0_0_1_n_n_wf : DotDims.WF S256x1600 S1600x1024 S256x1024 [1] [0] [0] [1] [] []
  dot_S256x1024_S1024x1600_S256x1600_1_0_0_1_n_n_wf : DotDims.WF S256x1024 S1024x1600 S256x1600 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1600x1024.size a ≤ S1600x1024.size a
  hwx0_0 : ∀ i : grid0.Coords, EltTy.bits .f32 = 32 ∨ (Rect.block (s := S1600x1024) S1600x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1600x1024.size a ≤ S1600x1024.size a
  hwx0_3 : ∀ i : grid0.Coords, EltTy.bits .bf16 = 32 ∨ (Rect.block (s := S1600x1024) S1600x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1600x1024.size a ≤ S1600x1024.size a
  hwx1_3 : ∀ i : grid1.Coords, EltTy.bits .bf16 = 32 ∨ (Rect.block (s := S1600x1024) S1600x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1600x1024.size a ≤ S1600x1024.size a
  hwx1_4 : ∀ i : grid1.Coords, EltTy.bits .bf16 = 32 ∨ (Rect.block (s := S1600x1024) S1600x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1600.size a ≤ S1x1600.size a
  hwx1_5 : ∀ i : grid1.Coords, EltTy.bits .f32 = 32 ∨ (Rect.block (s := S1x1600) S1x1600.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3072x1600.size a ≤ S3072x1600.size a
  hwx1_6 : ∀ i : grid1.Coords, EltTy.bits .bf16 = 32 ∨ (Rect.block (s := S3072x1600) S3072x1600.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1600.size a ≤ S1x1600.size a
  hwx1_7 : ∀ i : grid1.Coords, EltTy.bits .f32 = 32 ∨ (Rect.block (s := S1x1600) S1x1600.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1600.size a ≤ S8192x1600.size a
  hwx1_8 : ∀ i : grid1.Coords, EltTy.bits .f32 = 32 ∨ (Rect.block (s := S8192x1600) S256x1600.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S8192x1024.size a
  hwx1_9 : ∀ i : grid1.Coords, EltTy.bits .f32 = 32 ∨ (Rect.block (s := S8192x1024) S256x1024.size (cc1_transform_9 i) (hinb1_9 i)).WholeWords (EltTy.packing .f32)

variable [Facts₀]

def dot_S1600x1024_S1024x1024_S1600x1024_1_0_0_1_n_n : DotDims S1600x1024 S1024x1024 S1600x1024 where
  lhsContracting := [1]
  rhsContracting := [0]
  lhsNonContracting := [0]
  rhsNonContracting := [1]
  lhsBatch := []
  rhsBatch := []
  wf := dot_S1600x1024_S1024x1024_S1600x1024_1_0_0_1_n_n_wf
def dot_S256x2048_S2048x1600_S256x1600_1_0_0_1_n_n : DotDims S256x2048 S2048x1600 S256x1600 where
  lhsContracting := [1]
  rhsContracting := [0]
  lhsNonContracting := [0]
  rhsNonContracting := [1]
  lhsBatch := []
  rhsBatch := []
  wf := dot_S256x2048_S2048x1600_S256x1600_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1600x1024_S256x1600_1_1_0_0_n_n : DotDims S256x1024 S1600x1024 S256x1600 where
  lhsContracting := [1]
  rhsContracting := [1]
  lhsNonContracting := [0]
  rhsNonContracting := [0]
  lhsBatch := []
  rhsBatch := []
  wf := dot_S256x1024_S1600x1024_S256x1600_1_1_0_0_n_n_wf
def dot_S256x1600_S1600x1024_S256x1024_1_0_0_1_n_n : DotDims S256x1600 S1600x1024 S256x1024 where
  lhsContracting := [1]
  rhsContracting := [0]
  lhsNonContracting := [0]
  rhsNonContracting := [1]
  lhsBatch := []
  rhsBatch := []
  wf := dot_S256x1600_S1600x1024_S256x1024_1_0_0_1_n_n_wf
def dot_S256x1024_S1024x1600_S256x1600_1_0_0_1_n_n : DotDims S256x1024 S1024x1600 S256x1600 where
  lhsContracting := [1]
  rhsContracting := [0]
  lhsNonContracting := [0]
  rhsNonContracting := [1]
  lhsBatch := []
  rhsBatch := []
  wf := dot_S256x1024_S1024x1600_S256x1600_1_0_0_1_n_n_wf

abbrev win0_0 : Pipeline.Window sig grid0 :=
  Pipeline.Window.ofSpec (Memref.whole main_arg1) S1600x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1600x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1600x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1600x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1600.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S3072x1600.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x1600.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12_0) S256x1600.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v12_1) S256x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S1600x1024 : Shape := ⟨2, ![1600, 1024]⟩
abbrev S1600 : Shape := ⟨1, ![1600]⟩
abbrev S1024x2048 : Shape := ⟨2, ![1024, 2048]⟩
abbrev S1024 : Shape := ⟨1, ![1024]⟩
abbrev S1024x1024 : Shape := ⟨2, ![1024, 1024]⟩
abbrev S1600x3072 : Shape := ⟨2, ![1600, 3072]⟩
abbrev S2048x1024 : Shape := ⟨2, ![2048, 1024]⟩
abbrev S8192x1024 : Shape := ⟨2, ![8192, 1024]⟩
abbrev S1x1024 : Shape := ⟨2, ![1, 1024]⟩
abbrev S1024x1600 : Shape := ⟨2, ![1024, 1600]⟩
abbrev S8192x1600 : Shape := ⟨2, ![8192, 1600]⟩
abbrev S_ : Shape := ⟨0, ![]⟩
abbrev S8192 : Shape := ⟨1, ![8192]⟩
abbrev S8192x1 : Shape := ⟨2, ![8192, 1]⟩
abbrev S1x1600 : Shape := ⟨2, ![1, 1600]⟩
abbrev S8192x3072 : Shape := ⟨2, ![8192, 3072]⟩
abbrev S3072x1600 : Shape := ⟨2, ![3072, 1600]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1600x1024, .f32⟩
  | .hbm, ⟨2, _⟩ => ⟨S1600, .f32⟩
  | .hbm, ⟨3, _⟩ => ⟨S1024x2048, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1600x3072, .f32⟩
  | .hbm, ⟨8, _⟩ => ⟨S1600, .f32⟩
  | .hbm, ⟨9, _⟩ => ⟨S2048x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S1600x1024, .f32⟩
  | .hbm, ⟨16, _⟩ => ⟨S1x1024, .f32⟩
  | .hbm, ⟨17, _⟩ => ⟨S1600x1024, .f32⟩
  | .hbm, ⟨18, _⟩ => ⟨S1600x1024, .f32⟩
  | .hbm, ⟨19, _⟩ => ⟨S1024x1600, .f32⟩
  | .hbm, ⟨20, _⟩ => ⟨S8192x1600, .f32⟩
  | .hbm, ⟨21, _⟩ => ⟨S_, .f32⟩
  | .hbm, ⟨22, _⟩ => ⟨S8192x1600, .f32⟩
  | .hbm, ⟨23, _⟩ => ⟨S8192x1600, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x1600, .f32⟩
  | .hbm, ⟨31, _⟩ => ⟨S8192x1600, .f32⟩
  | .hbm, ⟨32, _⟩ => ⟨S8192x1600, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1600, .f32⟩
  | .hbm, ⟨37, _⟩ => ⟨S8192x1600, .f32⟩
  | .hbm, ⟨38, _⟩ => ⟨S1x1600, .f32⟩
  | .hbm, ⟨39, _⟩ => ⟨S8192x1600, .f32⟩
  | .hbm, ⟨40, _⟩ => ⟨S8192x1600, .f32⟩
  | .hbm, ⟨41, _⟩ => ⟨S8192x1024, .f32⟩
  | .hbm, ⟨42, _⟩ => ⟨S8192x3072, .f32⟩
  | .hbm, ⟨43, _⟩ => ⟨S3072x1600, .f32⟩
  | .hbm, ⟨44, _⟩ => ⟨S8192x1600, .f32⟩
  | .hbm, ⟨45, _⟩ => ⟨S1x1600, .f32⟩
  | .hbm, ⟨46, _⟩ => ⟨S8192x1600, .f32⟩
  | .hbm, ⟨47, _⟩ => ⟨S8192x1600, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1024x1024_S1024x1024_1_0 : S1024x1024.Transposes [1, 0] S1024x1024
  bcast_S1x1024_S1600x1024_0_1 : S1x1024.BroadcastsInDim S1600x1024 (![0, 1] : Fin 2 → Fin S1600x1024.rank)
  transposes_S1600x1024_S1024x1600_1_0 : S1600x1024.Transposes [1, 0] S1024x1600
  bcast_S_S8192x1600 : S_.BroadcastsInDim S8192x1600 (![] : Fin 0 → Fin S8192x1600.rank)
  reducesTo_S8192x1600_S8192_d1 : S8192x1600.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1600_0_1 : S8192x1.BroadcastsInDim S8192x1600 (![0, 1] : Fin 2 → Fin S8192x1600.rank)
  bcast_S1600_S1x1600_1 : S1600.BroadcastsInDim S1x1600 (![1] : Fin 1 → Fin S1x1600.rank)
  bcast_S1x1600_S8192x1600_0_1 : S1x1600.BroadcastsInDim S8192x1600 (![0, 1] : Fin 2 → Fin S8192x1600.rank)
  concatenates_S8192x2048_S8192x1024_S8192x3072_d1 : Shape.Concatenates [S8192x2048, S8192x1024] S8192x3072 1
  transposes_S1600x3072_S3072x1600_1_0 : S1600x3072.Transposes [1, 0] S3072x1600
  dot_S8192x2048_S2048x1024_S8192x1024_1_0_0_1_n_n_wf : DotDims.WF S8192x2048 S2048x1024 S8192x1024 [1] [0] [0] [1] [] []
  dot_S1600x1024_S1024x1024_S1600x1024_1_0_0_1_n_n_wf : DotDims.WF S1600x1024 S1024x1024 S1600x1024 [1] [0] [0] [1] [] []
  dot_S8192x1024_S1024x1600_S8192x1600_1_0_0_1_n_n_wf : DotDims.WF S8192x1024 S1024x1600 S8192x1600 [1] [0] [0] [1] [] []
  dot_S8192x1600_S1600x1024_S8192x1024_1_0_0_1_n_n_wf : DotDims.WF S8192x1600 S1600x1024 S8192x1024 [1] [0] [0] [1] [] []
  dot_S8192x3072_S3072x1600_S8192x1600_1_0_0_1_n_n_wf : DotDims.WF S8192x3072 S3072x1600 S8192x1600 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S1600x1024_S1024x1024_S1600x1024_1_0_0_1_n_n : DotDims S1600x1024 S1024x1024 S1600x1024 where
  lhsContracting := [1]
  rhsContracting := [0]
  lhsNonContracting := [0]
  rhsNonContracting := [1]
  lhsBatch := []
  rhsBatch := []
  wf := dot_S1600x1024_S1024x1024_S1600x1024_1_0_0_1_n_n_wf
def dot_S8192x1024_S1024x1600_S8192x1600_1_0_0_1_n_n : DotDims S8192x1024 S1024x1600 S8192x1600 where
  lhsContracting := [1]
  rhsContracting := [0]
  lhsNonContracting := [0]
  rhsNonContracting := [1]
  lhsBatch := []
  rhsBatch := []
  wf := dot_S8192x1024_S1024x1600_S8192x1600_1_0_0_1_n_n_wf
def dot_S8192x1600_S1600x1024_S8192x1024_1_0_0_1_n_n : DotDims S8192x1600 S1600x1024 S8192x1024 where
  lhsContracting := [1]
  rhsContracting := [0]
  lhsNonContracting := [0]
  rhsNonContracting := [1]
  lhsBatch := []
  rhsBatch := []
  wf := dot_S8192x1600_S1600x1024_S8192x1024_1_0_0_1_n_n_wf
def dot_S8192x3072_S3072x1600_S8192x1600_1_0_0_1_n_n : DotDims S8192x3072 S3072x1600 S8192x1600 where
  lhsContracting := [1]
  rhsContracting := [0]
  lhsNonContracting := [0]
  rhsNonContracting := [1]
  lhsBatch := []
  rhsBatch := []
  wf := dot_S8192x3072_S3072x1600_S8192x1600_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.Spec.lean ====
/-
  Dictionary cross-attention with a prior-weighted mixture, and a linear read-out of the features joined with the
  mixture, as plain functions on the extended reals.

  From features x [8192, 2048], a dictionary dic [1600, 1024], a prior over its 1600 entries and three affine maps:
    key   (k, e) = Σ_d dic (k, d) · Wz (e, d) + Wzb e
    query (n, e) = Σ_f x (n, f) · Wy (e, f) + Wyb e
    score (n, k) = (Σ_e query (n, e) · key (k, e)) · c           (c the f32 word 0x3D000000, that is 1/32)
    attn  (n, ·) = softmax of the row score (n, ·)
    mix   (n, d) = Σ_k (attn (n, k) · prior k) · dic (k, d)
    logit (n, j) = (Σ_f x (n, f) · csw (j, f) + Σ_d mix (n, d) · csw (j, 2048 + d)) + csb j.
  The read-out is written with its contraction over the 3072 joined columns already cut at column 2048; a sum over
  3072 indices is the sum over the first 2048 plus the sum over the last 1024 (`sum_split`), which holds in any
  commutative additive monoid, infinities included.
-/
import Idealize.ShloMosaic.PureOps.Ideal
import Idealize.ShloMosaic.Lib.ValueIdx
import proofs.«118240_j8727373546112_2_alg».proof.Proof.LibRowSoftmax

noncomputable section

open scoped BigOperators

namespace Cert.Deconf

open Idealize.ShloMosaic Idealize.ShloMosaic.ValueIdx Cert.RowSoftmax

/-- A matrix of extended reals. -/
abbrev A2 (a b : ℕ) : Type := (⟨2, ![a, b]⟩ : Shape).Idx → EReal
/-- A vector of extended reals. -/
abbrev A1 (a : ℕ) : Type := (⟨1, ![a]⟩ : Shape).Idx → EReal

/-- Column f of the first 2048 among the 3072 joined columns. -/
def lo (f : Fin 2048) : Fin 3072 := ⟨f.val, by have := f.isLt; omega⟩
/-- Column 2048 + d among the 3072 joined columns. -/
def hi (d : Fin 1024) : Fin 3072 := ⟨2048 + d.val, by have := d.isLt; omega⟩

/-- A sum over the 3072 joined columns is the sum over the first 2048 plus the sum over the last 1024. -/
theorem sum_split (g : Fin 3072 → EReal) :
    ∑ c : Fin 3072, g c = (∑ f : Fin 2048, g (lo f)) + ∑ d : Fin 1024, g (hi d) :=
  Fin.sum_univ_add (a := 2048) (b := 1024) g

section
variable (x : A2 8192 2048) (dic : A2 1600 1024) (prior : A1 1600) (Wy : A2 1024 2048) (Wyb : A1 1024)
  (Wz : A2 1024 1024) (Wzb : A1 1024) (csw : A2 1600 3072) (csb : A1 1600)

/-- The key of dictionary entry k, coordinate e. -/
def key (k : Fin 1600) (e : Fin 1024) : EReal := (∑ d : Fin 1024, dic (ix2 k d) * Wz (ix2 e d)) + Wzb (ix1 e)

/-- The query of row n, coordinate e. -/
def query (n : Fin 8192) (e : Fin 1024) : EReal := (∑ f : Fin 2048, x (ix2 n f) * Wy (ix2 e f)) + Wyb (ix1 e)

/-- The scaled score of row n against dictionary entry k. -/
def score (n : Fin 8192) (k : Fin 1600) : EReal :=
  (∑ e : Fin 1024, query x Wy Wyb n e * key dic Wz Wzb k e) * Ideal.ofBits .f32 0x3D000000#32

/-- The attention of row n on dictionary entry k: the softmax of the row of scores. -/
def attn (n : Fin 8192) (k : Fin 1600) : EReal := rowSoftmax (fun k' => score x dic Wy Wyb Wz Wzb n k') k

/-- The prior-weighted mixture of dictionary rows for row n, coordinate d. -/
def mix (n : Fin 8192) (d : Fin 1024) : EReal :=
  ∑ k : Fin 1600, (attn x dic Wy Wyb Wz Wzb n k * prior (ix1 k)) * dic (ix2 k d)

/-- The read-out of row n at class j, its contraction cut at column 2048. -/
def logit (n : Fin 8192) (j : Fin 1600) : EReal :=
  ((∑ f : Fin 2048, x (ix2 n f) * csw (ix2 j (lo f)))
    + ∑ d : Fin 1024, mix x dic prior Wy Wyb Wz Wzb n d * csw (ix2 j (hi d))) + csb (ix1 j)

/-- The keys as an array. -/
def keyArr : A2 1600 1024 := fun i => key dic Wz Wzb (i 0) (i 1)
/-- The mixtures as an array. -/
def mixArr : A2 8192 1024 := fun i => mix x dic prior Wy Wyb Wz Wzb (i 0) (i 1)
/-- The read-outs as an array. -/
def logitArr : A2 8192 1600 := fun i => logit x dic prior Wy Wyb Wz Wzb csw csb (i 0) (i 1)

theorem keyArr_ix2 (k : Fin 1600) (e : Fin 1024) : keyArr dic Wz Wzb (ix2 k e) = key dic Wz Wzb k e := rfl
theorem mixArr_ix2 (n : Fin 8192) (d : Fin 1024) :
    mixArr x dic prior Wy Wyb Wz Wzb (ix2 n d) = mix x dic prior Wy Wyb Wz Wzb n d := rfl
theorem logitArr_ix2 (n : Fin 8192) (j : Fin 1600) :
    logitArr x dic prior Wy Wyb Wz Wzb csw csb (ix2 n j) = logit x dic prior Wy Wyb Wz Wzb csw csb n j := rfl

end

end Cert.Deconf

end
-- ==== Proof.KernelBlocks.lean ====
/-
  What the two kernel bodies compute, read at one entry on the extended reals.

  The first body, on whole arrays, stores the keys: a matrix product into zeros plus a row broadcast down the rows.
  The second body works on a block of 256 rows of the features. Entry (p, ·) of everything it computes depends only on
  row p of the block: the query row (a product plus a broadcast row), the row of scaled scores against all 1600 keys
  (a product contracted on the last axis of both operands, times 1/32), the softmax of that row, its product with the
  prior row, the mixture (a product with the dictionary), and the read-out (a product of the block with the first
  2048 rows of the transposed read-out weights, plus a product of the mixture with the last 1024 rows, plus a
  broadcast row). So when row p of the block is row n of the features and the other operands are the transposed or
  re-laid parameters, the stored entries are `mix` and `logit` at row n. A change of float format is the identity
  on extended reals, so the roundings to bf16 in front of each product vanish.
-/
import proofs.«118240_j8727373546112_2_alg».proof.Proof.Gen.KernelIdeal.Skeleton
import Idealize.ShloMosaic.Lib.ValueLayout
import proofs.«118240_j8727373546112_2_alg».proof.Proof.LibPlainMatmul
import proofs.«118240_j8727373546112_2_alg».proof.Proof.LibMatmulNT
import proofs.«118240_j8727373546112_2_alg».proof.Proof.LibRowSoftmax
import proofs.«118240_j8727373546112_2_alg».proof.Proof.Spec

noncomputable section

open scoped BigOperators

namespace Cert.Deconf

open Idealize.ShloMosaic Idealize.ShloMosaic.ValueIdx Cert.KernelIdeal Cert.KernelIdeal.Gen Cert.RowSoftmax

/-! ## The keys -/

/-- Entry (k, e) of the first body's stored value: the key. -/
theorem keys_block (dic : A2 1600 1024) (Wz : A2 1024 1024) (Wzb : A1 1024)
    (v0 : FVec Ideal S1600x1024 .f32) (v2 : FVec Ideal S1024x1024 .bf16) (v5 : FVec Ideal S1x1024 .f32)
    (h0 : ∀ (k : Fin 1600) (d : Fin 1024), v0 (ix2 k d) = dic (ix2 k d))
    (h2 : ∀ (d e : Fin 1024), v2 (ix2 d e) = Wz (ix2 e d))
    (h5 : ∀ e : Fin 1024, v5 (ix2 (0 : Fin 1) e) = Wzb (ix1 e)) (k : Fin 1600) (e : Fin 1024) :
    k0_pay1 (F := Ideal) v0 v2 v5 (ix2 k e) = key dic Wz Wzb k e := by
  show (matmul (F := Ideal) dot_S1600x1024_S1024x1024_S1600x1024_1_0_0_1_n_n none (truncf .bf16 v0 bitsLt_bf16_f32)
        (shapeCast S1024x1024 v2 shapeCasts_S1024x1024_S1024x1024) (constant (F := Ideal) S1600x1024 .f32 0x00000000#32) (ix2 k e) : EReal)
      + broadcastTo S1600x1024 (shapeCast S1x1024 v5 shapeCasts_S1x1024_S1x1024) broadcasts_S1x1024_S1600x1024 (ix2 k e) = _
  unfold key
  refine congrArg₂ (· + ·) ?_ ?_
  · refine (Cert.PlainMatmul.matmul_zero_apply 1600 1024 1024 none _ _ k e).trans ?_
    refine Finset.sum_congr rfl fun d _ => ?_
    show v0 (ix2 k d) * shapeCast S1024x1024 v2 shapeCasts_S1024x1024_S1024x1024 (ix2 d e) = _
    rw [shapeCast_self, h0, h2]
  · rw [shapeCast_self]
    exact (broadcastTo_1b_ab_apply v5 _ k e).trans (h5 e)

/-! ## The second body's intermediate blocks -/

/-- The block's queries. -/
def qBlk (v0 : FVec Ideal S256x2048 .f32) (v7 : FVec Ideal S2048x1024 .bf16) (v10 : FVec Ideal S1x1024 .f32) :
    FVec Ideal S256x1024 .f32 :=
  addf (matmul (F := Ideal) dot_S256x2048_S2048x1024_S256x1024_1_0_0_1_n_n none (truncf .bf16 v0 bitsLt_bf16_f32)
      (shapeCast S2048x1024 v7 shapeCasts_S2048x1024_S2048x1024) (constant (F := Ideal) S256x1024 .f32 0x00000000#32))
    (broadcastTo S256x1024 (shapeCast S1x1024 v10 shapeCasts_S1x1024_S1x1024) broadcasts_S1x1024_S256x1024)

/-- The block's scaled scores against the keys. -/
def sBlk (q : FVec Ideal S256x1024 .f32) (v15 : FVec Ideal S1600x1024 .bf16) : FVec Ideal S256x1600 .f32 :=
  mulf (matmul (F := Ideal) dot_S256x1024_S1600x1024_S256x1600_1_1_0_0_n_n none (truncf .bf16 q bitsLt_bf16_f32)
      (shapeCast S1600x1024 v15 shapeCasts_S1600x1024_S1600x1024) (constant (F := Ideal) S256x1600 .f32 0x00000000#32))
    (broadcast S256x1600 (Scalar.ofBits (F := Ideal) .f32 0x3D000000#32))

/-- The softmax of every row of a block of scores, as the vector unit spells it. -/
def aBlk (s : FVec Ideal S256x1600 .f32) : FVec Ideal S256x1600 .f32 :=
  divf (exp (subf s (broadcastTo S256x1600 (shapeCast S256x1 (multiReduction (F := Ideal) .maximumf [1] S256 s 0xFF800000#32
        reduces_S256x1600_S256 (.inl rfl) rfl) shapeCasts_S256_S256x1) broadcasts_S256x1_S256x1600)))
    (broadcastTo S256x1600 (shapeCast S256x1 (multiReduction (F := Ideal) .add [1] S256
        (exp (subf s (broadcastTo S256x1600 (shapeCast S256x1 (multiReduction (F := Ideal) .maximumf [1] S256 s 0xFF800000#32
          reduces_S256x1600_S256 (.inl rfl) rfl) shapeCasts_S256_S256x1) broadcasts_S256x1_S256x1600)))
        0x00000000#32 reduces_S256x1600_S256 (.inl rfl) rfl) shapeCasts_S256_S256x1) broadcasts_S256x1_S256x1600)

/-- The stored mixture block is a product of the prior-weighted attention with the dictionary. -/
theorem pay6_eq (v0 : FVec Ideal S256x2048 .f32) (v7 : FVec Ideal S2048x1024 .bf16) (v10 : FVec Ideal S1x1024 .f32)
    (v15 : FVec Ideal S1600x1024 .bf16) (v29 : FVec Ideal S1x1600 .f32) (v34 : FVec Ideal S1600x1024 .bf16) :
    k1_pay6 (F := Ideal) v0 v7 v10 v15 v29 v34
      = matmul (F := Ideal) dot_S256x1600_S1600x1024_S256x1024_1_0_0_1_n_n none
          (truncf .bf16 (mulf (aBlk (sBlk (qBlk v0 v7 v10) v15))
            (broadcastTo S256x1600 (shapeCast S1x1600 v29 shapeCasts_S1x1600_S1x1600) broadcasts_S1x1600_S256x1600)) bitsLt_bf16_f32)
          (shapeCast S1600x1024 v34 shapeCasts_S1600x1024_S1600x1024) (constant (F := Ideal) S256x1024 .f32 0x00000000#32) := rfl

section Rows
variable (x : A2 8192 2048) (dic : A2 1600 1024) (prior : A1 1600) (Wy : A2 1024 2048) (Wyb : A1 1024)
  (Wz : A2 1024 1024) (Wzb : A1 1024) (csw : A2 1600 3072) (csb : A1 1600)
  (v0 : FVec Ideal S256x2048 .f32) (v7 : FVec Ideal S2048x1024 .bf16) (v10 : FVec Ideal S1x1024 .f32)
  (v15 : FVec Ideal S1600x1024 .bf16) (v29 : FVec Ideal S1x1600 .f32) (v34 : FVec Ideal S1600x1024 .bf16)
  (p : Fin 256) (n : Fin 8192)

/-- Row p of the block's queries is the query row of n. -/
theorem qBlk_row (h0 : ∀ f : Fin 2048, v0 (ix2 p f) = x (ix2 n f))
    (h7 : ∀ (f : Fin 2048) (e : Fin 1024), v7 (ix2 f e) = Wy (ix2 e f))
    (h10 : ∀ e : Fin 1024, v10 (ix2 (0 : Fin 1) e) = Wyb (ix1 e)) (e : Fin 1024) :
    qBlk v0 v7 v10 (ix2 p e) = query x Wy Wyb n e := by
  unfold qBlk query
  rw [addf_apply]
  refine congrArg₂ (· + ·) ?_ ?_
  · refine (Cert.PlainMatmul.matmul_zero_apply 256 2048 1024 none _ _ p e).trans ?_
    refine Finset.sum_congr rfl fun f _ => ?_
    show v0 (ix2 p f) * shapeCast S2048x1024 v7 shapeCasts_S2048x1024_S2048x1024 (ix2 f e) = _
    rw [shapeCast_self, h0, h7]
  · rw [shapeCast_self]
    exact (broadcastTo_1b_ab_apply v10 _ p e).trans (h10 e)

/-- Row p of the block's scores is the score row of n. -/
theorem sBlk_row (q : FVec Ideal S256x1024 .f32) (hq : ∀ e : Fin 1024, q (ix2 p e) = query x Wy Wyb n e)
    (h15 : ∀ (k : Fin 1600) (e : Fin 1024), v15 (ix2 k e) = key dic Wz Wzb k e) (k : Fin 1600) :
    sBlk q v15 (ix2 p k) = score x dic Wy Wyb Wz Wzb n k := by
  unfold sBlk score
  rw [mulf_apply]
  refine congrArg₂ (· * ·) ?_ rfl
  refine (Cert.MatmulNT.matmul_zero_apply 256 1024 1600 none _ _ p k).trans ?_
  refine Finset.sum_congr rfl fun e _ => ?_
  show q (ix2 p e) * shapeCast S1600x1024 v15 shapeCasts_S1600x1024_S1600x1024 (ix2 k e) = _
  rw [shapeCast_self, hq, h15]

/-- Row p of the softmax of a block of scores whose row p is the score row of n: the attention row of n. -/
theorem aBlk_row (s : FVec Ideal S256x1600 .f32) (hs : ∀ k : Fin 1600, s (ix2 p k) = score x dic Wy Wyb Wz Wzb n k)
    (k : Fin 1600) : aBlk s (ix2 p k) = attn x dic Wy Wyb Wz Wzb n k := by
  unfold aBlk attn
  refine (vectorSoftmax_apply s reduces_S256x1600_S256 (.inl rfl) (.inl rfl) rfl rfl shapeCasts_S256_S256x1
    broadcasts_S256x1_S256x1600 p k).trans ?_
  rw [softmax2_ix2]
  exact congrArg (fun r => rowSoftmax r k) (funext hs)

/-- Entry (p, d) of the stored mixture block: the mixture of row n. -/
theorem mix_block (h0 : ∀ f : Fin 2048, v0 (ix2 p f) = x (ix2 n f))
    (h7 : ∀ (f : Fin 2048) (e : Fin 1024), v7 (ix2 f e) = Wy (ix2 e f))
    (h10 : ∀ e : Fin 1024, v10 (ix2 (0 : Fin 1) e) = Wyb (ix1 e))
    (h15 : ∀ (k : Fin 1600) (e : Fin 1024), v15 (ix2 k e) = key dic Wz Wzb k e)
    (h29 : ∀ k : Fin 1600, v29 (ix2 (0 : Fin 1) k) = prior (ix1 k))
    (h34 : ∀ (k : Fin 1600) (d : Fin 1024), v34 (ix2 k d) = dic (ix2 k d)) (d : Fin 1024) :
    k1_pay6 (F := Ideal) v0 v7 v10 v15 v29 v34 (ix2 p d) = mix x dic prior Wy Wyb Wz Wzb n d := by
  rw [pay6_eq]
  unfold mix
  refine (Cert.PlainMatmul.matmul_zero_apply 256 1600 1024 none _ _ p d).trans ?_
  refine Finset.sum_congr rfl fun k _ => ?_
  show (aBlk (sBlk (qBlk v0 v7 v10) v15) (ix2 p k)
      * broadcastTo S256x1600 (shapeCast S1x1600 v29 shapeCasts_S1x1600_S1x1600) broadcasts_S1x1600_S256x1600 (ix2 p k))
      * shapeCast S1600x1024 v34 shapeCasts_S1600x1024_S1600x1024 (ix2 k d) = _
  rw [shapeCast_self, shapeCast_self, h34,
    aBlk_row x dic Wy Wyb Wz Wzb p n _ (sBlk_row x dic Wy Wyb Wz Wzb v15 p n _ (qBlk_row x Wy Wyb v0 v7 v10 p n h0 h7 h10) h15) k]
  exact congrArg (fun z => attn x dic Wy Wyb Wz Wzb n k * z * dic (ix2 k d)) ((broadcastTo_1b_ab_apply v29 _ p k).trans (h29 k))

/-- Entry (p, j) of the stored read-out block: the read-out of row n. -/
theorem logit_block (v2 : FVec Ideal S3072x1600 .bf16) (v41 : FVec Ideal S1x1600 .f32)
    (h0 : ∀ f : Fin 2048, v0 (ix2 p f) = x (ix2 n f))
    (h7 : ∀ (f : Fin 2048) (e : Fin 1024), v7 (ix2 f e) = Wy (ix2 e f))
    (h10 : ∀ e : Fin 1024, v10 (ix2 (0 : Fin 1) e) = Wyb (ix1 e))
    (h15 : ∀ (k : Fin 1600) (e : Fin 1024), v15 (ix2 k e) = key dic Wz Wzb k e)
    (h29 : ∀ k : Fin 1600, v29 (ix2 (0 : Fin 1) k) = prior (ix1 k))
    (h34 : ∀ (k : Fin 1600) (d : Fin 1024), v34 (ix2 k d) = dic (ix2 k d))
    (h2 : ∀ (c : Fin 3072) (j : Fin 1600), v2 (ix2 c j) = csw (ix2 j c))
    (h41 : ∀ j : Fin 1600, v41 (ix2 (0 : Fin 1) j) = csb (ix1 j)) (j : Fin 1600) :
    k1_pay1 (F := Ideal) (k1_pay4 (F := Ideal) v2) (k1_pay5 (F := Ideal) v0 v2) (k1_pay6 (F := Ideal) v0 v7 v10 v15 v29 v34) v41 (ix2 p j)
      = logit x dic prior Wy Wyb Wz Wzb csw csb n j := by
  show ((matmul (F := Ideal) dot_S256x2048_S2048x1600_S256x1600_1_0_0_1_n_n none (truncf .bf16 v0 bitsLt_bf16_f32)
          (extractStridedSlice S2048x1600 ![0, 0] (shapeCast S3072x1600 v2 shapeCasts_S3072x1600_S3072x1600) slices_S3072x1600_o0_0_S2048x1600)
          (constant (F := Ideal) S256x1600 .f32 0x00000000#32) (ix2 p j) : EReal)
        + matmul (F := Ideal) dot_S256x1024_S1024x1600_S256x1600_1_0_0_1_n_n none (truncf .bf16 (k1_pay6 (F := Ideal) v0 v7 v10 v15 v29 v34) bitsLt_bf16_f32)
          (extractStridedSlice S1024x1600 ![2048, 0] (shapeCast S3072x1600 v2 shapeCasts_S3072x1600_S3072x1600) slices_S3072x1600_o2048_0_S1024x1600)
          (constant (F := Ideal) S256x1600 .f32 0x00000000#32) (ix2 p j))
      + broadcastTo S256x1600 (shapeCast S1x1600 v41 shapeCasts_S1x1600_S1x1600) broadcasts_S1x1600_S256x1600 (ix2 p j) = _
  unfold logit
  refine congrArg₂ (· + ·) (congrArg₂ (· + ·) ?_ ?_) ?_
  · refine (Cert.PlainMatmul.matmul_zero_apply 256 2048 1600 none _ _ p j).trans ?_
    refine Finset.sum_congr rfl fun f _ => ?_
    show v0 (ix2 p f) * extractStridedSlice S2048x1600 ![0, 0] (shapeCast S3072x1600 v2 shapeCasts_S3072x1600_S3072x1600) slices_S3072x1600_o0_0_S2048x1600 (ix2 f j) = _
    rw [h0, shapeCast_self, extractStridedSlice_apply ![0, 0] v2 slices_S3072x1600_o0_0_S2048x1600 (ix2 f j) (ix2 (lo f) j) (fun a => by
      match a with
      | ⟨0, _⟩ => show f.val = 0 + f.val; omega
      | ⟨1, _⟩ => show j.val = 0 + j.val; omega), h2]
  · refine (Cert.PlainMatmul.matmul_zero_apply 256 1024 1600 none _ _ p j).trans ?_
    refine Finset.sum_congr rfl fun d _ => ?_
    show k1_pay6 (F := Ideal) v0 v7 v10 v15 v29 v34 (ix2 p d) * extractStridedSlice S1024x1600 ![2048, 0] (shapeCast S3072x1600 v2 shapeCasts_S3072x1600_S3072x1600) slices_S3072x1600_o2048_0_S1024x1600 (ix2 d j) = _
    rw [mix_block x dic prior Wy Wyb Wz Wzb v0 v7 v10 v15 v29 v34 p n h0 h7 h10 h15 h29 h34 d, shapeCast_self,
      extractStridedSlice_apply ![2048, 0] v2 slices_S3072x1600_o2048_0_S1024x1600 (ix2 d j) (ix2 (hi d) j) (fun a => by
      match a with
      | ⟨0, _⟩ => show 2048 + d.val = 2048 + d.val; rfl
      | ⟨1, _⟩ => show j.val = 0 + j.val; omega), h2]
  · rw [shapeCast_self]
    exact (broadcastTo_1b_ab_apply v41 _ p j).trans (h41 j)

end Rows

end Cert.Deconf

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.KernelHost.lean ====
/-
  The arrays the host prepares before the two kernel calls, read at one entry on the extended reals: the three weight
  matrices transposed (and rounded to bf16, which changes nothing on extended reals), the dictionary rounded, and the
  three bias vectors and the prior re-laid as rows of one line. The features and the dictionary themselves are as launched.
-/
import proofs.«118240_j8727373546112_2_alg».proof.Proof.Gen.KernelIdeal.Frame
import Idealize.ShloMosaic.Lib.ValueIdx
import Idealize.ShloMosaic.Lib.Pipeline.Value
import proofs.«118240_j8727373546112_2_alg».proof.Proof.LibColRowBroadcast
import proofs.«118240_j8727373546112_2_alg».proof.Proof.LibHostLayout

noncomputable section

namespace Cert.Deconf.Kern

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Before the first call -/

theorem v1_dic : (V1 m ρ c main_arg1 : S1600x1024.Idx → EReal) = m ((c : Thread nD τ).loc main_arg1) := by
  show StableHlo.after hostOps0 (W0 m ρ c) (Proc.devRef .tc main_arg1) = _
  after_results

theorem v1_x : (V1 m ρ c main_arg0 : S8192x2048.Idx → EReal) = m ((c : Thread nD τ).loc main_arg0) := by
  show StableHlo.after hostOps0 (W0 m ρ c) (Proc.devRef .tc main_arg0) = _
  after_results

theorem v1_wzT (d e : Fin 1024) :
    (V1 m ρ c main_v3 : S1024x1024.Idx → EReal) (ix2 d e) = m ((c : Thread nD τ).loc main_arg5) (ix2 e d) := by
  have h : @Eq (S1024x1024.Idx → EReal) (V1 m ρ c main_v3) (truncf (F := Ideal) .bf16 (transpose S1024x1024 [1, 0] (m ((c : Thread nD τ).loc main_arg5)) transposes_S1024x1024_S1024x1024_1_0) bitsLt_bf16_f32) := by
    show StableHlo.after hostOps0 (W0 m ρ c) (Proc.devRef .tc main_v3) = _
    after_results
  rw [h, truncf_apply]
  exact Cert.HostLayout.transpose2_apply _ _ d e

theorem v1_wyT (f : Fin 2048) (e : Fin 1024) :
    (V1 m ρ c main_v1 : S2048x1024.Idx → EReal) (ix2 f e) = m ((c : Thread nD τ).loc main_arg3) (ix2 e f) := by
  have h : @Eq (S2048x1024.Idx → EReal) (V1 m ρ c main_v1) (truncf (F := Ideal) .bf16 (transpose S2048x1024 [1, 0] (m ((c : Thread nD τ).loc main_arg3)) transposes_S1024x2048_S2048x1024_1_0) bitsLt_bf16_f32) := by
    show StableHlo.after hostOps0 (W0 m ρ c) (Proc.devRef .tc main_v1) = _
    after_results
  rw [h, truncf_apply]
  exact Cert.HostLayout.transpose2_apply _ _ f e

theorem v1_cswT (q : Fin 3072) (j : Fin 1600) :
    (V1 m ρ c main_v5 : S3072x1600.Idx → EReal) (ix2 q j) = m ((c : Thread nD τ).loc main_arg7) (ix2 j q) := by
  have h : @Eq (S3072x1600.Idx → EReal) (V1 m ρ c main_v5) (truncf (F := Ideal) .bf16 (transpose S3072x1600 [1, 0] (m ((c : Thread nD τ).loc main_arg7)) transposes_S1600x3072_S3072x1600_1_0) bitsLt_bf16_f32) := by
    show StableHlo.after hostOps0 (W0 m ρ c) (Proc.devRef .tc main_v5) = _
    after_results
  rw [h, truncf_apply]
  exact Cert.HostLayout.transpose2_apply _ _ q j

theorem v1_dicB : (V1 m ρ c main_v6 : S1600x1024.Idx → EReal) = m ((c : Thread nD τ).loc main_arg1) := by
  show StableHlo.after hostOps0 (W0 m ρ c) (Proc.devRef .tc main_v6) = _
  after_results; rfl

theorem v1_wyb (e : Fin 1024) :
    (V1 m ρ c main_v7 : S1x1024.Idx → EReal) (ix2 (0 : Fin 1) e) = m ((c : Thread nD τ).loc main_arg4) (ix1 e) := by
  have h : @Eq (S1x1024.Idx → EReal) (V1 m ρ c main_v7) (shapeCast S1x1024 (m ((c : Thread nD τ).loc main_arg4)) shapeCasts_S1024_S1x1024) := by
    show StableHlo.after hostOps0 (W0 m ρ c) (Proc.devRef .tc main_v7) = _
    after_results; rfl
  rw [h]
  exact Cert.ColRowBroadcast.rowCast_apply _ _ (0 : Fin 1) e

theorem v1_wzb (e : Fin 1024) :
    (V1 m ρ c main_v8 : S1x1024.Idx → EReal) (ix2 (0 : Fin 1) e) = m ((c : Thread nD τ).loc main_arg6) (ix1 e) := by
  have h : @Eq (S1x1024.Idx → EReal) (V1 m ρ c main_v8) (shapeCast S1x1024 (m ((c : Thread nD τ).loc main_arg6)) shapeCasts_S1024_S1x1024) := by
    show StableHlo.after hostOps0 (W0 m ρ c) (Proc.devRef .tc main_v8) = _
    after_results; rfl
  rw [h]
  exact Cert.ColRowBroadcast.rowCast_apply _ _ (0 : Fin 1) e

theorem v1_prior (k : Fin 1600) :
    (V1 m ρ c main_v9 : S1x1600.Idx → EReal) (ix2 (0 : Fin 1) k) = m ((c : Thread nD τ).loc main_arg2) (ix1 k) := by
  have h : @Eq (S1x1600.Idx → EReal) (V1 m ρ c main_v9) (shapeCast S1x1600 (m ((c : Thread nD τ).loc main_arg2)) shapeCasts_S1600_S1x1600) := by
    show StableHlo.after hostOps0 (W0 m ρ c) (Proc.devRef .tc main_v9) = _
    after_results; rfl
  rw [h]
  exact Cert.ColRowBroadcast.rowCast_apply _ _ (0 : Fin 1) k

theorem v1_csb (j : Fin 1600) :
    (V1 m ρ c main_v10 : S1x1600.Idx → EReal) (ix2 (0 : Fin 1) j) = m ((c : Thread nD τ).loc main_arg8) (ix1 j) := by
  have h : @Eq (S1x1600.Idx → EReal) (V1 m ρ c main_v10) (shapeCast S1x1600 (m ((c : Thread nD τ).loc main_arg8)) shapeCasts_S1600_S1x1600) := by
    show StableHlo.after hostOps0 (W0 m ρ c) (Proc.devRef .tc main_v10) = _
    after_results; rfl
  rw [h]
  exact Cert.ColRowBroadcast.rowCast_apply _ _ (0 : Fin 1) j

end Cert.Deconf.Kern

end
-- ==== Proof.KernelValue.lean ====
/-
  The three arrays the two kernel calls leave, each as one function of the argument arrays.

  The first call has one grid point and whole-array blocks: what it writes back is the key array. The second call has 32
  grid points; point t sees rows 256·t … 256·t + 255 of the features, all other operands whole, and writes back the
  same rows of the mixture and of the read-out. Row p of point t's block is row 256·t + p, so each written block is that
  block of the whole-array function, and the 32 blocks cover all 8192 rows: row r lies in the block of point r / 256.
-/
import proofs.«118240_j8727373546112_2_alg».proof.Proof.KernelBlocks
import proofs.«118240_j8727373546112_2_alg».proof.Proof.KernelHost

set_option maxRecDepth 16384

noncomputable section

namespace Cert.Deconf.Kern

open Idealize.ShloMosaic Idealize.ShloMosaic.TcCoe Idealize.ShloMosaic.ValueIdx Idealize.SL.Sem
open Idealize.ShloMosaic.Pipeline (Dat)
open Cert.KernelIdeal Cert.KernelIdeal.Gen Cert.Deconf

variable (m : (ℓ : Loc nD τ sig) → Buf (Elt Ideal) ℓ) (ρ : Dev nD → PrngReg) (c : Dev nD)

theorem hz : (![0, 0] : Fin 2 → Nat) = fun _ => 0 := funext fun a => by fin_cases a <;> rfl

/-! ## The first call: the keys -/

/-- Every window of the first call sits at block (0, 0) at its one point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem blk0_0 (t : Fin cfg0.N) (y : S1600x1024.Idx) :
    iblk0 (V1 m ρ) c 0 t y = m ((c : Thread nD τ).loc main_arg1) y := by
  show V1 m ρ c main_arg1 (((cfg0.win 0).blk t).view.emb y) = _
  rw [v1_dic]
  refine congrArg _ (funext fun a => Fin.ext ?_)
  obtain ⟨e0, e1, -⟩ := idx0 t
  match a with
  | ⟨0, _⟩ => show win0_0.index t (0 : Fin 2) * 1600 + 1 * (y 0).val = (y 0).val; omega
  | ⟨1, _⟩ => show win0_0.index t (1 : Fin 2) * 1024 + 1 * (y 1).val = (y 1).val; omega

theorem blk0_1 (t : Fin cfg0.N) (y : S1024x1024.Idx) :
    iblk0 (V1 m ρ) c 1 t y = (V1 m ρ c main_v3 : S1024x1024.Idx → EReal) y := by
  show V1 m ρ c main_v3 (((cfg0.win 1).blk t).view.emb y) = _
  refine congrArg _ (funext fun a => Fin.ext ?_)
  obtain ⟨-, -, e0, e1, -⟩ := idx0 t
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk0_2 (t : Fin cfg0.N) (y : S1x1024.Idx) :
    iblk0 (V1 m ρ) c 2 t y = (V1 m ρ c main_v8 : S1x1024.Idx → EReal) y := by
  show V1 m ρ c main_v8 (((cfg0.win 2).blk t).view.emb y) = _
  refine congrArg _ (funext fun a => Fin.ext ?_)
  obtain ⟨-, -, -, -, e0, e1, -⟩ := idx0 t
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- What the one point writes back is the key array read through its block. -/
theorem flushed0 (t : Fin cfg0.N) :
    (dat0 (V1 m ρ) c).flushed 3 t
      = ((cfg0.win 3).blk t).view.read (Elt Ideal) (keyArr (m ((c : Thread nD τ).loc main_arg1)) (m ((c : Thread nD τ).loc main_arg5)) (m ((c : Thread nD τ).loc main_arg6))) := by
  show (cfg0.win 3).cut (grid0.coords t) ((dat0 (V1 m ρ) c).after 3 t) = _
  rw [after0_3]
  unfold out0_3
  rw [View.canon_unit_zero hz]
  simp only [View.ld_unit_zero (S := S1600x1024) hz, View.ld_unit_zero (S := S1024x1024) hz, View.ld_unit_zero (S := S1x1024) hz]
  funext j
  obtain ⟨k, e, rfl⟩ : ∃ (k : Fin 1600) (e : Fin 1024), j = ix2 k e := ⟨j 0, j 1, eq_ix2 j⟩
  show k0_pay1 (F := Ideal) (iblk0 (V1 m ρ) c 0 t) (iblk0 (V1 m ρ) c 1 t) (iblk0 (V1 m ρ) c 2 t) (ix2 k e)
    = keyArr (m ((c : Thread nD τ).loc main_arg1)) (m ((c : Thread nD τ).loc main_arg5)) (m ((c : Thread nD τ).loc main_arg6)) (((cfg0.win 3).blk t).view.emb (ix2 k e))
  have hi : ((cfg0.win 3).blk t).view.emb (ix2 k e) = ix2 k e := by
    obtain ⟨-, -, -, -, -, -, e0, e1⟩ := idx0 t
    refine funext fun a => Fin.ext ?_
    match a with
    | ⟨0, _⟩ => show win0_3.index t (0 : Fin 2) * 1600 + 1 * k.val = k.val; omega
    | ⟨1, _⟩ => show win0_3.index t (1 : Fin 2) * 1024 + 1 * e.val = e.val; omega
  rw [hi, keyArr_ix2]
  exact keys_block _ _ _ _ _ _ (fun k d => blk0_0 m ρ c t (ix2 k d))
    (fun d e => (blk0_1 m ρ c t (ix2 d e)).trans (v1_wzT m ρ c d e))
    (fun e => (blk0_2 m ρ c t (ix2 (0 : Fin 1) e)).trans (v1_wzb m ρ c e)) k e

theorem mem_blk0 (t : Fin cfg0.N) (i : S1600x1024.Idx) :
    i ∈ ((cfg0.win 3).blk t).view.set ↔ ∀ a : Fin 2, win0_3.index t a * S1600x1024.size a ≤ (i a).val
      ∧ (i a).val < win0_3.index t a * S1600x1024.size a + S1600x1024.size a := by
  show i ∈ ((View.whole main_v11).slice (win0_3.rect t)).set ↔ _
  rw [View.set_slice_whole, Rect.mem_set_unit]
  exact Iff.rfl

/-- After the first call the key buffer holds the key array. -/
theorem keys_final : (dat0 (V1 m ρ) c).arrAt 3 cfg0.N = keyArr (m ((c : Thread nD τ).loc main_arg1)) (m ((c : Thread nD τ).loc main_arg5)) (m ((c : Thread nD τ).loc main_arg6)) :=
  (dat0 (V1 m ρ) c).arrAt_eq_of_cover 3 _ (fun t _ => flushed0 m ρ c t) fun i => by
    refine ⟨t0_0, flush0_3 t0_0, ?_⟩
    rw [mem_blk0]
    obtain ⟨-, -, -, -, -, -, e0, e1⟩ := idx0 t0_0
    intro a
    match a with
    | ⟨0, _⟩ =>
      show win0_3.index t0_0 (0 : Fin 2) * 1600 ≤ (i 0).val ∧ (i 0).val < win0_3.index t0_0 (0 : Fin 2) * 1600 + 1600
      have h : (i 0).val < 1600 := (i 0).isLt
      omega
    | ⟨1, _⟩ =>
      show win0_3.index t0_0 (1 : Fin 2) * 1024 ≤ (i 1).val ∧ (i 1).val < win0_3.index t0_0 (1 : Fin 2) * 1024 + 1024
      have h : (i 1).val < 1024 := (i 1).isLt
      omega

/-! ## Between the calls -/

theorem v2_keys : (V2 m ρ c main_v11 : S1600x1024.Idx → EReal) = keyArr (m ((c : Thread nD τ).loc main_arg1)) (m ((c : Thread nD τ).loc main_arg5)) (m ((c : Thread nD τ).loc main_arg6)) :=
  (W2_arr m ρ c 3).trans (keys_final m ρ c)

theorem v2_x : (V2 m ρ c main_arg0 : S8192x2048.Idx → EReal) = m ((c : Thread nD τ).loc main_arg0) :=
  (W2_of_ne m ρ c main_arg0 (by decide)).trans (v1_x m ρ c)
theorem v2_v1 : (V2 m ρ c main_v1 : S2048x1024.Idx → EReal) = V1 m ρ c main_v1 := W2_of_ne m ρ c main_v1 (by decide)
theorem v2_v7 : (V2 m ρ c main_v7 : S1x1024.Idx → EReal) = V1 m ρ c main_v7 := W2_of_ne m ρ c main_v7 (by decide)
theorem v2_v6 : (V2 m ρ c main_v6 : S1600x1024.Idx → EReal) = m ((c : Thread nD τ).loc main_arg1) :=
  (W2_of_ne m ρ c main_v6 (by decide)).trans (v1_dicB m ρ c)
theorem v2_v9 : (V2 m ρ c main_v9 : S1x1600.Idx → EReal) = V1 m ρ c main_v9 := W2_of_ne m ρ c main_v9 (by decide)
theorem v2_v5 : (V2 m ρ c main_v5 : S3072x1600.Idx → EReal) = V1 m ρ c main_v5 := W2_of_ne m ρ c main_v5 (by decide)
theorem v2_v10 : (V2 m ρ c main_v10 : S1x1600.Idx → EReal) = V1 m ρ c main_v10 := W2_of_ne m ρ c main_v10 (by decide)

/-! ## The second call: the mixture and the read-out -/

/-- At point t the feature window and the two output windows sit at block (t, 0), every other window at (0, 0). -/
theorem idx1 : ∀ t : Fin cfg1.N,
    (win1_0.index t (0 : Fin 2) = t.val ∧ win1_0.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- There are 32 points. -/
theorem lt32 (t : Fin cfg1.N) : t.val < 32 := by
  have h : cfg1.N = 32 := N_1
  have := t.isLt
  omega

/-- The row of the features that is row p of point t's block. -/
def row (t : Fin cfg1.N) (p : Fin 256) : Fin 8192 :=
  ⟨t.val * 256 + p.val, by have := lt32 t; have := p.isLt; omega⟩

theorem blk1_0 (t : Fin cfg1.N) (p : Fin 256) (f : Fin 2048) :
    iblk1 (V2 m ρ) c 0 t (ix2 p f) = m ((c : Thread nD τ).loc main_arg0) (ix2 (row t p) f) := by
  show V2 m ρ c main_arg0 (((cfg1.win 0).blk t).view.emb (ix2 p f)) = _
  rw [v2_x]
  refine congrArg _ (funext fun a => Fin.ext ?_)
  obtain ⟨⟨e0, e1⟩, -⟩ := idx1 t
  match a with
  | ⟨0, _⟩ => show win1_0.index t (0 : Fin 2) * 256 + 1 * p.val = t.val * 256 + p.val; omega
  | ⟨1, _⟩ => show win1_0.index t (1 : Fin 2) * 2048 + 1 * f.val = f.val; omega

theorem blk1_1 (t : Fin cfg1.N) (y : S2048x1024.Idx) :
    iblk1 (V2 m ρ) c 1 t y = (V1 m ρ c main_v1 : S2048x1024.Idx → EReal) y := by
  show V2 m ρ c main_v1 (((cfg1.win 1).blk t).view.emb y) = _
  rw [v2_v1]
  refine congrArg _ (funext fun a => Fin.ext ?_)
  obtain ⟨-, -, -, ⟨e0, e1⟩, -⟩ := idx1 t
  match a with
  | ⟨0, _⟩ => show win1_1.index t (0 : Fin 2) * 2048 + 1 * (y 0).val = (y 0).val; omega
  | ⟨1, _⟩ => show win1_1.index t (1 : Fin 2) * 1024 + 1 * (y 1).val = (y 1).val; omega

theorem blk1_2 (t : Fin cfg1.N) (y : S1x1024.Idx) :
    iblk1 (V2 m ρ) c 2 t y = (V1 m ρ c main_v7 : S1x1024.Idx → EReal) y := by
  show V2 m ρ c main_v7 (((cfg1.win 2).blk t).view.emb y) = _
  rw [v2_v7]
  refine congrArg _ (funext fun a => Fin.ext ?_)
  obtain ⟨-, -, -, -, ⟨e0, e1⟩, -⟩ := idx1 t
  match a with
  | ⟨0, _⟩ => show win1_2.index t (0 : Fin 2) * 1 + 1 * (y 0).val = (y 0).val; omega
  | ⟨1, _⟩ => show win1_2.index t (1 : Fin 2) * 1024 + 1 * (y 1).val = (y 1).val; omega

theorem blk1_3 (t : Fin cfg1.N) (y : S1600x1024.Idx) :
    iblk1 (V2 m ρ) c 3 t y = keyArr (m ((c : Thread nD τ).loc main_arg1)) (m ((c : Thread nD τ).loc main_arg5)) (m ((c : Thread nD τ).loc main_arg6)) y := by
  show V2 m ρ c main_v11 (((cfg1.win 3).blk t).view.emb y) = _
  rw [v2_keys]
  refine congrArg _ (funext fun a => Fin.ext ?_)
  obtain ⟨-, -, -, -, -, ⟨e0, e1⟩, -⟩ := idx1 t
  match a with
  | ⟨0, _⟩ => show win1_3.index t (0 : Fin 2) * 1600 + 1 * (y 0).val = (y 0).val; omega
  | ⟨1, _⟩ => show win1_3.index t (1 : Fin 2) * 1024 + 1 * (y 1).val = (y 1).val; omega

theorem blk1_4 (t : Fin cfg1.N) (y : S1600x1024.Idx) :
    iblk1 (V2 m ρ) c 4 t y = m ((c : Thread nD τ).loc main_arg1) y := by
  show V2 m ρ c main_v6 (((cfg1.win 4).blk t).view.emb y) = _
  rw [v2_v6]
  refine congrArg _ (funext fun a => Fin.ext ?_)
  obtain ⟨-, -, -, -, -, -, ⟨e0, e1⟩, -⟩ := idx1 t
  match a with
  | ⟨0, _⟩ => show win1_4.index t (0 : Fin 2) * 1600 + 1 * (y 0).val = (y 0).val; omega
  | ⟨1, _⟩ => show win1_4.index t (1 : Fin 2) * 1024 + 1 * (y 1).val = (y 1).val; omega

theorem blk1_5 (t : Fin cfg1.N) (y : S1x1600.Idx) :
    iblk1 (V2 m ρ) c 5 t y = (V1 m ρ c main_v9 : S1x1600.Idx → EReal) y := by
  show V2 m ρ c main_v9 (((cfg1.win 5).blk t).view.emb y) = _
  rw [v2_v9]
  refine congrArg _ (funext fun a => Fin.ext ?_)
  obtain ⟨-, -, -, -, -, -, -, ⟨e0, e1⟩, -⟩ := idx1 t
  match a with
  | ⟨0, _⟩ => show win1_5.index t (0 : Fin 2) * 1 + 1 * (y 0).val = (y 0).val; omega
  | ⟨1, _⟩ => show win1_5.index t (1 : Fin 2) * 1600 + 1 * (y 1).val = (y 1).val; omega

theorem blk1_6 (t : Fin cfg1.N) (y : S3072x1600.Idx) :
    iblk1 (V2 m ρ) c 6 t y = (V1 m ρ c main_v5 : S3072x1600.Idx → EReal) y := by
  show V2 m ρ c main_v5 (((cfg1.win 6).blk t).view.emb y) = _
  rw [v2_v5]
  refine congrArg _ (funext fun a => Fin.ext ?_)
  obtain ⟨-, -, -, -, -, -, -, -, ⟨e0, e1⟩, -⟩ := idx1 t
  match a with
  | ⟨0, _⟩ => show win1_6.index t (0 : Fin 2) * 3072 + 1 * (y 0).val = (y 0).val; omega
  | ⟨1, _⟩ => show win1_6.index t (1 : Fin 2) * 1600 + 1 * (y 1).val = (y 1).val; omega

theorem blk1_7 (t : Fin cfg1.N) (y : S1x1600.Idx) :
    iblk1 (V2 m ρ) c 7 t y = (V1 m ρ c main_v10 : S1x1600.Idx → EReal) y := by
  show V2 m ρ c main_v10 (((cfg1.win 7).blk t).view.emb y) = _
  rw [v2_v10]
  refine congrArg _ (funext fun a => Fin.ext ?_)
  obtain ⟨-, -, -, -, -, -, -, -, -, e0, e1⟩ := idx1 t
  match a with
  | ⟨0, _⟩ => show win1_7.index t (0 : Fin 2) * 1 + 1 * (y 0).val = (y 0).val; omega
  | ⟨1, _⟩ => show win1_7.index t (1 : Fin 2) * 1600 + 1 * (y 1).val = (y 1).val; omega

/-- What point t writes back to the mixture buffer is the mixture array read through its block. -/
theorem flushed1_9 (t : Fin cfg1.N) :
    (dat1 (V2 m ρ) c).flushed 9 t
      = ((cfg1.win 9).blk t).view.read (Elt Ideal) (mixArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg1.win 9).cut (grid1.coords t) ((dat1 (V2 m ρ) c).after 9 t) = _
  rw [after1_9]
  unfold out1_9
  rw [View.canon_unit_zero hz]
  simp only [View.ld_unit_zero (S := S256x2048) hz, View.ld_unit_zero (S := S2048x1024) hz, View.ld_unit_zero (S := S1x1024) hz,
    View.ld_unit_zero (S := S1600x1024) hz, View.ld_unit_zero (S := S1x1600) hz]
  funext j
  obtain ⟨p, d, rfl⟩ : ∃ (p : Fin 256) (d : Fin 1024), j = ix2 p d := ⟨j 0, j 1, eq_ix2 j⟩
  show k1_pay6 (F := Ideal) (iblk1 (V2 m ρ) c 0 t) (iblk1 (V2 m ρ) c 1 t) (iblk1 (V2 m ρ) c 2 t) (iblk1 (V2 m ρ) c 3 t)
      (iblk1 (V2 m ρ) c 5 t) (iblk1 (V2 m ρ) c 4 t) (ix2 p d)
    = mixArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg1.win 9).blk t).view.emb (ix2 p d))
  have hi : ((cfg1.win 9).blk t).view.emb (ix2 p d) = ix2 (row t p) d := by
    obtain ⟨-, -, ⟨e0, e1⟩, -⟩ := idx1 t
    refine funext fun a => Fin.ext ?_
    match a with
    | ⟨0, _⟩ => show win1_9.index t (0 : Fin 2) * 256 + 1 * p.val = t.val * 256 + p.val; omega
    | ⟨1, _⟩ => show win1_9.index t (1 : Fin 2) * 1024 + 1 * d.val = d.val; omega
  rw [hi, mixArr_ix2]
  exact mix_block _ _ _ _ _ _ _ _ _ _ _ _ _ p (row t p) (fun f => blk1_0 m ρ c t p f)
    (fun f e => (blk1_1 m ρ c t (ix2 f e)).trans (v1_wyT m ρ c f e))
    (fun e => (blk1_2 m ρ c t (ix2 (0 : Fin 1) e)).trans (v1_wyb m ρ c e))
    (fun k e => (blk1_3 m ρ c t (ix2 k e)).trans (keyArr_ix2 _ _ _ k e))
    (fun k => (blk1_5 m ρ c t (ix2 (0 : Fin 1) k)).trans (v1_prior m ρ c k))
    (fun k d => blk1_4 m ρ c t (ix2 k d)) d

/-- What point t writes back to the read-out buffer is the read-out array read through its block. -/
theorem flushed1_8 (t : Fin cfg1.N) :
    (dat1 (V2 m ρ) c).flushed 8 t
      = ((cfg1.win 8).blk t).view.read (Elt Ideal) (logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg1.win 8).cut (grid1.coords t) ((dat1 (V2 m ρ) c).after 8 t) = _
  rw [after1_8]
  unfold out1_8
  rw [View.canon_unit_zero hz]
  simp only [View.ld_unit_zero (S := S256x2048) hz, View.ld_unit_zero (S := S2048x1024) hz, View.ld_unit_zero (S := S1x1024) hz,
    View.ld_unit_zero (S := S1600x1024) hz, View.ld_unit_zero (S := S1x1600) hz, View.ld_unit_zero (S := S3072x1600) hz]
  funext j
  obtain ⟨p, q, rfl⟩ : ∃ (p : Fin 256) (q : Fin 1600), j = ix2 p q := ⟨j 0, j 1, eq_ix2 j⟩
  show k1_pay1 (F := Ideal) (k1_pay4 (F := Ideal) (iblk1 (V2 m ρ) c 6 t)) (k1_pay5 (F := Ideal) (iblk1 (V2 m ρ) c 0 t) (iblk1 (V2 m ρ) c 6 t))
      (k1_pay6 (F := Ideal) (iblk1 (V2 m ρ) c 0 t) (iblk1 (V2 m ρ) c 1 t) (iblk1 (V2 m ρ) c 2 t) (iblk1 (V2 m ρ) c 3 t)
        (iblk1 (V2 m ρ) c 5 t) (iblk1 (V2 m ρ) c 4 t)) (iblk1 (V2 m ρ) c 7 t) (ix2 p q)
    = logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg1.win 8).blk t).view.emb (ix2 p q))
  have hi : ((cfg1.win 8).blk t).view.emb (ix2 p q) = ix2 (row t p) q := by
    obtain ⟨-, ⟨e0, e1⟩, -⟩ := idx1 t
    refine funext fun a => Fin.ext ?_
    match a with
    | ⟨0, _⟩ => show win1_8.index t (0 : Fin 2) * 256 + 1 * p.val = t.val * 256 + p.val; omega
    | ⟨1, _⟩ => show win1_8.index t (1 : Fin 2) * 1600 + 1 * q.val = q.val; omega
  rw [hi, logitArr_ix2]
  exact logit_block _ _ _ _ _ _ _ _ _ _ _ _ _ _ _ p (row t p) _ _ (fun f => blk1_0 m ρ c t p f)
    (fun f e => (blk1_1 m ρ c t (ix2 f e)).trans (v1_wyT m ρ c f e))
    (fun e => (blk1_2 m ρ c t (ix2 (0 : Fin 1) e)).trans (v1_wyb m ρ c e))
    (fun k e => (blk1_3 m ρ c t (ix2 k e)).trans (keyArr_ix2 _ _ _ k e))
    (fun k => (blk1_5 m ρ c t (ix2 (0 : Fin 1) k)).trans (v1_prior m ρ c k))
    (fun k d => blk1_4 m ρ c t (ix2 k d))
    (fun q j => (blk1_6 m ρ c t (ix2 q j)).trans (v1_cswT m ρ c q j))
    (fun j => (blk1_7 m ρ c t (ix2 (0 : Fin 1) j)).trans (v1_csb m ρ c j)) q

theorem mem_blk1_9 (t : Fin cfg1.N) (i : S8192x1024.Idx) :
    i ∈ ((cfg1.win 9).blk t).view.set ↔ ∀ a : Fin 2, win1_9.index t a * S256x1024.size a ≤ (i a).val
      ∧ (i a).val < win1_9.index t a * S256x1024.size a + S256x1024.size a := by
  show i ∈ ((View.whole main_v12_1).slice (win1_9.rect t)).set ↔ _
  rw [View.set_slice_whole, Rect.mem_set_unit]
  exact Iff.rfl

theorem mem_blk1_8 (t : Fin cfg1.N) (i : S8192x1600.Idx) :
    i ∈ ((cfg1.win 8).blk t).view.set ↔ ∀ a : Fin 2, win1_8.index t a * S256x1600.size a ≤ (i a).val
      ∧ (i a).val < win1_8.index t a * S256x1600.size a + S256x1600.size a := by
  show i ∈ ((View.whole main_v12_0).slice (win1_8.rect t)).set ↔ _
  rw [View.set_slice_whole, Rect.mem_set_unit]
  exact Iff.rfl

/-- The point whose blocks hold row r. -/
def pointOf (r : Nat) (h : r < 8192) : Fin cfg1.N :=
  ⟨r / 256, by rw [show cfg1.N = 32 from N_1]; omega⟩

/-- After the second call the mixture buffer holds the mixture array. -/
theorem mix_final : (dat1 (V2 m ρ) c).arrAt 9 cfg1.N = mixArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat1 (V2 m ρ) c).arrAt_eq_of_cover 9 _ (fun t _ => flushed1_9 m ρ c t) fun i => by
    have h0 : (i 0).val < 8192 := (i 0).isLt
    have h1 : (i 1).val < 1024 := (i 1).isLt
    refine ⟨pointOf (i 0).val h0, flush1_9 _, ?_⟩
    rw [mem_blk1_9]
    obtain ⟨-, -, ⟨e0, e1⟩, -⟩ := idx1 (pointOf (i 0).val h0)
    have ht : (pointOf (i 0).val h0).val = (i 0).val / 256 := rfl
    intro a
    match a with
    | ⟨0, _⟩ =>
      show win1_9.index (pointOf (i 0).val h0) (0 : Fin 2) * 256 ≤ (i 0).val
        ∧ (i 0).val < win1_9.index (pointOf (i 0).val h0) (0 : Fin 2) * 256 + 256
      omega
    | ⟨1, _⟩ =>
      show win1_9.index (pointOf (i 0).val h0) (1 : Fin 2) * 1024 ≤ (i 1).val
        ∧ (i 1).val < win1_9.index (pointOf (i 0).val h0) (1 : Fin 2) * 1024 + 1024
      omega

/-- After the second call the read-out buffer holds the read-out array. -/
theorem logit_final : (dat1 (V2 m ρ) c).arrAt 8 cfg1.N = logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dat1 (V2 m ρ) c).arrAt_eq_of_cover 8 _ (fun t _ => flushed1_8 m ρ c t) fun i => by
    have h0 : (i 0).val < 8192 := (i 0).isLt
    have h1 : (i 1).val < 1600 := (i 1).isLt
    refine ⟨pointOf (i 0).val h0, flush1_8 _, ?_⟩
    rw [mem_blk1_8]
    obtain ⟨-, ⟨e0, e1⟩, -⟩ := idx1 (pointOf (i 0).val h0)
    have ht : (pointOf (i 0).val h0).val = (i 0).val / 256 := rfl
    intro a
    match a with
    | ⟨0, _⟩ =>
      show win1_8.index (pointOf (i 0).val h0) (0 : Fin 2) * 256 ≤ (i 0).val
        ∧ (i 0).val < win1_8.index (pointOf (i 0).val h0) (0 : Fin 2) * 256 + 256
      omega
    | ⟨1, _⟩ =>
      show win1_8.index (pointOf (i 0).val h0) (1 : Fin 2) * 1600 ≤ (i 1).val
        ∧ (i 1).val < win1_8.index (pointOf (i 0).val h0) (1 : Fin 2) * 1600 + 1600
      omega

end Cert.Deconf.Kern

end
-- ==== Proof.KernelRun.lean ====
/-
  The kernel program's run with its two result buffers named.

  The run of the program's three segments — the host operations, the first call, the second call — ends with every
  unscoped buffer at the last boundary's contents. Read at the two result buffers these are what the second call's
  write-backs leave, which are the read-out array and the mixture array of the argument arrays; read at the arguments
  they are the launch contents.
-/
import proofs.«118240_j8727373546112_2_alg».proof.Proof.KernelValue

set_option maxRecDepth 16384

noncomputable section

namespace Cert.Deconf.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Deconf

section AnyFloat
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two result buffers at what the second call's write-backs leave and
    the argument arrays as launched. -/
theorem run_blocks : θ_run defs (onTc (τ := τ) (main (F := F))) ⟨m, fun _ => 0, ρ⟩ (fun r => ∀ c : Dev nD,
      r.2.mem ((c.tc : Thread nD τ).loc main_v12_0) = (dat1 (V2 m ρ) c).arrAt 8 cfg1.N
      ∧ r.2.mem ((c.tc : Thread nD τ).loc main_v12_1) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v12_0 (by decide))).trans (W3_arr m ρ c 8),
       (h c _ (mem_uc main_v12_1 (by decide))).trans (W3_arr m ρ c 9),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end AnyFloat

/-- On the extended reals the two result buffers end at the read-out array and the mixture array of the argument
    arrays. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12_0) = logitArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v12_1) = mixArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (logit_final m ρ c), (h c).2.1.trans (mix_final m ρ c), (h c).2.2⟩)
    (run_blocks m ρ)

end Cert.Deconf.Kern

end
-- ==== Proof.RefRun.lean ====
/-
  The reference program's run, read stretch by stretch.

  Its 39 host operations in program order are cut into three consecutive stretches: the first ends at the scaled
  scores, the second at the prior-weighted attention, the third at the two results. Each stretch is read from arbitrary
  contents of the buffers, as a function of the few buffers it reads; the contents after all three are the third's
  after the second's after the first's. Composed: every weakly fair execution terminates with the mixture buffer at
  `mixture (weights (scores …) prior) dic` and the read-out buffer at `readout x (mixture …) csw csb` of the argument
  arrays, which end unchanged.
-/
import proofs.«118240_j8727373546112_2_alg».proof.Proof.Gen.ReferenceIdeal
import Idealize.ShloMosaic.Lib.StableHlo.Run

noncomputable section

namespace Cert.Deconf.Ref

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Up to the scaled scores. -/
abbrev ops1 : List (HloOp τ sig (Elt F)) :=
  [ unary main_arg3 main_v0 ((transpose S2048x1024 [1, 0] · transposes_S1024x2048_S2048x1024_1_0) : (⟨S1024x2048, .f32⟩ : BufTy).Contents (Elt F) → (⟨S2048x1024, .f32⟩ : BufTy).Contents (Elt F)),
    binary main_arg0 main_v0 main_v1 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    unary main_arg4 main_v2 (broadcastInDim S1x1024 ![1] bcast_S1024_S1x1024_1 : (⟨S1024, .f32⟩ : BufTy).Contents (Elt F) → (⟨S1x1024, .f32⟩ : BufTy).Contents (Elt F)),
    unary main_v2 main_v3 (broadcastInDim S8192x1024 ![0, 1] bcast_S1x1024_S8192x1024_0_1 : (⟨S1x1024, .f32⟩ : BufTy).Contents (Elt F) → (⟨S8192x1024, .f32⟩ : BufTy).Contents (Elt F)),
    binary main_v1 main_v3 main_v4 (addf : (⟨S8192x1024, .f32⟩ : BufTy).Contents (Elt F) → (⟨S8192x1024, .f32⟩ : BufTy).Contents (Elt F) → (⟨S8192x1024, .f32⟩ : BufTy).Contents (Elt F)),
    unary main_arg5 main_v5 ((transpose S1024x1024 [1, 0] · transposes_S1024x1024_S1024x1024_1_0) : (⟨S1024x1024, .f32⟩ : BufTy).Contents (Elt F) → (⟨S1024x1024, .f32⟩ : BufTy).Contents (Elt F)),
    binary main_arg1 main_v5 main_v6 ((fun l r => Host.dotGeneral dot_S1600x1024_S1024x1024_S1600x1024_1_0_0_1_n_n none l r) : (⟨S1600x1024, .f32⟩ : BufTy).Contents (Elt F) → (⟨S1024x1024, .f32⟩ : BufTy).Contents (Elt F) → (⟨S1600x1024, .f32⟩ : BufTy).Contents (Elt F)),
    unary main_arg6 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S1600x1024 ![0, 1] bcast_S1x1024_S1600x1024_0_1 : (⟨S1x1024, .f32⟩ : BufTy).Contents (Elt F) → (⟨S1600x1024, .f32⟩ : BufTy).Contents (Elt F)),
    binary main_v6 main_v8 main_v9 (addf : (⟨S1600x1024, .f32⟩ : BufTy).Contents (Elt F) → (⟨S1600x1024, .f32⟩ : BufTy).Contents (Elt F) → (⟨S1600x1024, .f32⟩ : BufTy).Contents (Elt F)),
    unary main_v9 main_v10 ((transpose S1024x1600 [1, 0] · transposes_S1600x1024_S1024x1600_1_0) : (⟨S1600x1024, .f32⟩ : BufTy).Contents (Elt F) → (⟨S1024x1600, .f32⟩ : BufTy).Contents (Elt F)),
    binary main_v4 main_v10 main_v11 ((fun l r => Host.dotGeneral dot_S8192x1024_S1024x1600_S8192x1600_1_0_0_1_n_n none l r) : (⟨S8192x1024, .f32⟩ : BufTy).Contents (Elt F) → (⟨S1024x1600, .f32⟩ : BufTy).Contents (Elt F) → (⟨S8192x1600, .f32⟩ : BufTy).Contents (Elt F)),
    nullary main_cst (constant S_ .f32 0x3D000000#32),
    unary main_cst main_v12 (broadcastInDim S8192x1600 ![] bcast_S_S8192x1600 : (⟨S_, .f32⟩ : BufTy).Contents (Elt F) → (⟨S8192x1600, .f32⟩ : BufTy).Contents (Elt F)),
    binary main_v11 main_v12 main_v13 (mulf : (⟨S8192x1600, .f32⟩ : BufTy).Contents (Elt F) → (⟨S8192x1600, .f32⟩ : BufTy).Contents (Elt F) → (⟨S8192x1600, .f32⟩ : BufTy).Contents (Elt F)) ]

/-- From the scores to the prior-weighted attention. -/
abbrev ops2 : List (HloOp τ sig (Elt F)) :=
  [ nullary main_cst_0 (constant S_ .f32 0xFF800000#32),
    binary main_v13 main_cst_0 main_v14 ((fun x v => Host.reduce FloatOps.maximumf x v reducesTo_S8192x1600_S8192_d1 h_S_) : (⟨S8192x1600, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v15 (broadcastInDim S8192 ![] bcast_S_S8192 : (⟨S_, .f32⟩ : BufTy).Contents (Elt F) → (⟨S8192, .f32⟩ : BufTy).Contents (Elt F)),
    binary main_v15 main_v14 main_v16 (maximumf : (⟨S8192, .f32⟩ : BufTy).Contents (Elt F) → (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x1600 ![0, 1] bcast_S8192x1_S8192x1600_0_1 : (⟨S8192x1, .f32⟩ : BufTy).Contents (Elt F) → (⟨S8192x1600, .f32⟩ : BufTy).Contents (Elt F)),
    binary main_v13 main_v18 main_v19 (subf : (⟨S8192x1600, .f32⟩ : BufTy).Contents (Elt F) → (⟨S8192x1600, .f32⟩ : BufTy).Contents (Elt F) → (⟨S8192x1600, .f32⟩ : BufTy).Contents (Elt F)),
    unary main_v19 main_v20 (Host.exp : (⟨S8192x1600, .f32⟩ : BufTy).Contents (Elt F) → (⟨S8192x1600, .f32⟩ : BufTy).Contents (Elt F)),
    nullary main_cst_2 (constant S_ .f32 0x00000000#32),
    binary main_v20 main_cst_2 main_v21 ((fun x v => Host.reduceAdd x v reducesTo_S8192x1600_S8192_d1 h_S_) : (⟨S8192x1600, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x1600 ![0, 1] bcast_S8192x1_S8192x1600_0_1 : (⟨S8192x1, .f32⟩ : BufTy).Contents (Elt F) → (⟨S8192x1600, .f32⟩ : BufTy).Contents (Elt F)),
    binary main_v20 main_v23 main_v24 (Host.divf : (⟨S8192x1600, .f32⟩ : BufTy).Contents (Elt F) → (⟨S8192x1600, .f32⟩ : BufTy).Contents (Elt F) → (⟨S8192x1600, .f32⟩ : BufTy).Contents (Elt F)),
    unary main_arg2 main_v25 (broadcastInDim S1x1600 ![1] bcast_S1600_S1x1600_1 : (⟨S1600, .f32⟩ : BufTy).Contents (Elt F) → (⟨S1x1600, .f32⟩ : BufTy).Contents (Elt F)),
    unary main_v25 main_v26 (broadcastInDim S8192x1600 ![0, 1] bcast_S1x1600_S8192x1600_0_1 : (⟨S1x1600, .f32⟩ : BufTy).Contents (Elt F) → (⟨S8192x1600, .f32⟩ : BufTy).Contents (Elt F)),
    binary main_v24 main_v26 main_v27 (mulf : (⟨S8192x1600, .f32⟩ : BufTy).Contents (Elt F) → (⟨S8192x1600, .f32⟩ : BufTy).Contents (Elt F) → (⟨S8192x1600, .f32⟩ : BufTy).Contents (Elt F)) ]

/-- From the weighted attention to the mixture and the read-out. -/
abbrev ops3 : List (HloOp τ sig (Elt F)) :=
  [ binary main_v27 main_arg1 main_v28 ((fun l r => Host.dotGeneral dot_S8192x1600_S1600x1024_S8192x1024_1_0_0_1_n_n none l r) : (⟨S8192x1600, .f32⟩ : BufTy).Contents (Elt F) → (⟨S1600x1024, .f32⟩ : BufTy).Contents (Elt F) → (⟨S8192x1024, .f32⟩ : BufTy).Contents (Elt F)),
    binary main_arg0 main_v28 main_v29 ((fun a b => concatenate S8192x3072 1 [⟨S8192x2048, a⟩, ⟨S8192x1024, b⟩] concatenates_S8192x2048_S8192x1024_S8192x3072_d1) : (⟨S8192x2048, .f32⟩ : BufTy).Contents (Elt F) → (⟨S8192x1024, .f32⟩ : BufTy).Contents (Elt F) → (⟨S8192x3072, .f32⟩ : BufTy).Contents (Elt F)),
    unary main_arg7 main_v30 ((transpose S3072x1600 [1, 0] · transposes_S1600x3072_S3072x1600_1_0) : (⟨S1600x3072, .f32⟩ : BufTy).Contents (Elt F) → (⟨S3072x1600, .f32⟩ : BufTy).Contents (Elt F)),
    binary main_v29 main_v30 main_v31 ((fun l r => Host.dotGeneral dot_S8192x3072_S3072x1600_S8192x1600_1_0_0_1_n_n none l r) : (⟨S8192x3072, .f32⟩ : BufTy).Contents (Elt F) → (⟨S3072x1600, .f32⟩ : BufTy).Contents (Elt F) → (⟨S8192x1600, .f32⟩ : BufTy).Contents (Elt F)),
    unary main_arg8 main_v32 (broadcastInDim S1x1600 ![1] bcast_S1600_S1x1600_1 : (⟨S1600, .f32⟩ : BufTy).Contents (Elt F) → (⟨S1x1600, .f32⟩ : BufTy).Contents (Elt F)),
    unary main_v32 main_v33 (broadcastInDim S8192x1600 ![0, 1] bcast_S1x1600_S8192x1600_0_1 : (⟨S1x1600, .f32⟩ : BufTy).Contents (Elt F) → (⟨S8192x1600, .f32⟩ : BufTy).Contents (Elt F)),
    binary main_v31 main_v33 main_v34 (addf : (⟨S8192x1600, .f32⟩ : BufTy).Contents (Elt F) → (⟨S8192x1600, .f32⟩ : BufTy).Contents (Elt F) → (⟨S8192x1600, .f32⟩ : BufTy).Contents (Elt F)) ]

/-- All of them, in order. -/
abbrev ops : List (HloOp τ sig (Elt F)) :=
  [ unary main_arg3 main_v0 ((transpose S2048x1024 [1, 0] · transposes_S1024x2048_S2048x1024_1_0) : (⟨S1024x2048, .f32⟩ : BufTy).Contents (Elt F) → (⟨S2048x1024, .f32⟩ : BufTy).Contents (Elt F)),
    binary main_arg0 main_v0 main_v1 ((fun l r => Host.dotGeneral dot_S8192x2048_S2048x1024_S8192x1024_1_0_0_1_n_n none l r) : (⟨S8192x2048, .f32⟩ : BufTy).Contents (Elt F) → (⟨S2048x1024, .f32⟩ : BufTy).Contents (Elt F) → (⟨S8192x1024, .f32⟩ : BufTy).Contents (Elt F)),
    unary main_arg4 main_v2 (broadcastInDim S1x1024 ![1] bcast_S1024_S1x1024_1 : (⟨S1024, .f32⟩ : BufTy).Contents (Elt F) → (⟨S1x1024, .f32⟩ : BufTy).Contents (Elt F)),
    unary main_v2 main_v3 (broadcastInDim S8192x1024 ![0, 1] bcast_S1x1024_S8192x1024_0_1 : (⟨S1x1024, .f32⟩ : BufTy).Contents (Elt F) → (⟨S8192x1024, .f32⟩ : BufTy).Contents (Elt F)),
    binary main_v1 main_v3 main_v4 (addf : (⟨S8192x1024, .f32⟩ : BufTy).Contents (Elt F) → (⟨S8192x1024, .f32⟩ : BufTy).Contents (Elt F) → (⟨S8192x1024, .f32⟩ : BufTy).Contents (Elt F)),
    unary main_arg5 main_v5 ((transpose S1024x1024 [1, 0] · transposes_S1024x1024_S1024x1024_1_0) : (⟨S1024x1024, .f32⟩ : BufTy).Contents (Elt F) → (⟨S1024x1024, .f32⟩ : BufTy).Contents (Elt F)),
    binary main_arg1 main_v5 main_v6 ((fun l r => Host.dotGeneral dot_S1600x1024_S1024x1024_S1600x1024_1_0_0_1_n_n none l r) : (⟨S1600x1024, .f32⟩ : BufTy).Contents (Elt F) → (⟨S1024x1024, .f32⟩ : BufTy).Contents (Elt F) → (⟨S1600x1024, .f32⟩ : BufTy).Contents (Elt F)),
    unary main_arg6 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S1600x1024 ![0, 1] bcast_S1x1024_S1600x1024_0_1 : (⟨S1x1024, .f32⟩ : BufTy).Contents (Elt F) → (⟨S1600x1024, .f32⟩ : BufTy).Contents (Elt F)),
    binary main_v6 main_v8 main_v9 (addf : (⟨S1600x1024, .f32⟩ : BufTy).Contents (Elt F) → (⟨S1600x1024, .f32⟩ : BufTy).Contents (Elt F) → (⟨S1600x1024, .f32⟩ : BufTy).Contents (Elt F)),
    unary main_v9 main_v10 ((transpose S1024x1600 [1, 0] · transposes_S1600x1024_S1024x1600_1_0) : (⟨S1600x1024, .f32⟩ : BufTy).Contents (Elt F) → (⟨S1024x1600, .f32⟩ : BufTy).Contents (Elt F)),
    binary main_v4 main_v10 main_v11 ((fun l r => Host.dotGeneral dot_S8192x1024_S1024x1600_S8192x1600_1_0_0_1_n_n none l r) : (⟨S8192x1024, .f32⟩ : BufTy).Contents (Elt F) → (⟨S1024x1600, .f32⟩ : BufTy).Contents (Elt F) → (⟨S8192x1600, .f32⟩ : BufTy).Contents (Elt F)),
    nullary main_cst (constant S_ .f32 0x3D000000#32),
    unary main_cst main_v12 (broadcastInDim S8192x1600 ![] bcast_S_S8192x1600 : (⟨S_, .f32⟩ : BufTy).Contents (Elt F) → (⟨S8192x1600, .f32⟩ : BufTy).Contents (Elt F)),
    binary main_v11 main_v12 main_v13 (mulf : (⟨S8192x1600, .f32⟩ : BufTy).Contents (Elt F) → (⟨S8192x1600, .f32⟩ : BufTy).Contents (Elt F) → (⟨S8192x1600, .f32⟩ : BufTy).Contents (Elt F)),
    nullary main_cst_0 (constant S_ .f32 0xFF800000#32),
    binary main_v13 main_cst_0 main_v14 ((fun x v => Host.reduce FloatOps.maximumf x v reducesTo_S8192x1600_S8192_d1 h_S_) : (⟨S8192x1600, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v15 (broadcastInDim S8192 ![] bcast_S_S8192 : (⟨S_, .f32⟩ : BufTy).Contents (Elt F) → (⟨S8192, .f32⟩ : BufTy).Contents (Elt F)),
    binary main_v15 main_v14 main_v16 (maximumf : (⟨S8192, .f32⟩ : BufTy).Contents (Elt F) → (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x1600 ![0, 1] bcast_S8192x1_S8192x1600_0_1 : (⟨S8192x1, .f32⟩ : BufTy).Contents (Elt F) → (⟨S8192x1600, .f32⟩ : BufTy).Contents (Elt F)),
    binary main_v13 main_v18 main_v19 (subf : (⟨S8192x1600, .f32⟩ : BufTy).Contents (Elt F) → (⟨S8192x1600, .f32⟩ : BufTy).Contents (Elt F) → (⟨S8192x1600, .f32⟩ : BufTy).Contents (Elt F)),
    unary main_v19 main_v20 (Host.exp : (⟨S8192x1600, .f32⟩ : BufTy).Contents (Elt F) → (⟨S8192x1600, .f32⟩ : BufTy).Contents (Elt F)),
    nullary main_cst_2 (constant S_ .f32 0x00000000#32),
    binary main_v20 main_cst_2 main_v21 ((fun x v => Host.reduceAdd x v reducesTo_S8192x1600_S8192_d1 h_S_) : (⟨S8192x1600, .f32⟩ : BufTy).Contents (Elt F) → (⟨S_, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x1600 ![0, 1] bcast_S8192x1_S8192x1600_0_1 : (⟨S8192x1, .f32⟩ : BufTy).Contents (Elt F) → (⟨S8192x1600, .f32⟩ : BufTy).Contents (Elt F)),
    binary main_v20 main_v23 main_v24 (Host.divf : (⟨S8192x1600, .f32⟩ : BufTy).Contents (Elt F) → (⟨S8192x1600, .f32⟩ : BufTy).Contents (Elt F) → (⟨S8192x1600, .f32⟩ : BufTy).Contents (Elt F)),
    unary main_arg2 main_v25 (broadcastInDim S1x1600 ![1] bcast_S1600_S1x1600_1 : (⟨S1600, .f32⟩ : BufTy).Contents (Elt F) → (⟨S1x1600, .f32⟩ : BufTy).Contents (Elt F)),
    unary main_v25 main_v26 (broadcastInDim S8192x1600 ![0, 1] bcast_S1x1600_S8192x1600_0_1 : (⟨S1x1600, .f32⟩ : BufTy).Contents (Elt F) → (⟨S8192x1600, .f32⟩ : BufTy).Contents (Elt F)),
    binary main_v24 main_v26 main_v27 (mulf : (⟨S8192x1600, .f32⟩ : BufTy).Contents (Elt F) → (⟨S8192x1600, .f32⟩ : BufTy).Contents (Elt F) → (⟨S8192x1600, .f32⟩ : BufTy).Contents (Elt F)),
    binary main_v27 main_arg1 main_v28 ((fun l r => Host.dotGeneral dot_S8192x1600_S1600x1024_S8192x1024_1_0_0_1_n_n none l r) : (⟨S8192x1600, .f32⟩ : BufTy).Contents (Elt F) → (⟨S1600x1024, .f32⟩ : BufTy).Contents (Elt F) → (⟨S8192x1024, .f32⟩ : BufTy).Contents (Elt F)),
    binary main_arg0 main_v28 main_v29 ((fun a b => concatenate S8192x3072 1 [⟨S8192x2048, a⟩, ⟨S8192x1024, b⟩] concatenates_S8192x2048_S8192x1024_S8192x3072_d1) : (⟨S8192x2048, .f32⟩ : BufTy).Contents (Elt F) → (⟨S8192x1024, .f32⟩ : BufTy).Contents (Elt F) → (⟨S8192x3072, .f32⟩ : BufTy).Contents (Elt F)),
    unary main_arg7 main_v30 ((transpose S3072x1600 [1, 0] · transposes_S1600x3072_S3072x1600_1_0) : (⟨S1600x3072, .f32⟩ : BufTy).Contents (Elt F) → (⟨S3072x1600, .f32⟩ : BufTy).Contents (Elt F)),
    binary main_v29 main_v30 main_v31 ((fun l r => Host.dotGeneral dot_S8192x3072_S3072x1600_S8192x1600_1_0_0_1_n_n none l r) : (⟨S8192x3072, .f32⟩ : BufTy).Contents (Elt F) → (⟨S3072x1600, .f32⟩ : BufTy).Contents (Elt F) → (⟨S8192x1600, .f32⟩ : BufTy).Contents (Elt F)),
    unary main_arg8 main_v32 (broadcastInDim S1x1600 ![1] bcast_S1600_S1x1600_1 : (⟨S1600, .f32⟩ : BufTy).Contents (Elt F) → (⟨S1x1600, .f32⟩ : BufTy).Contents (Elt F)),
    unary main_v32 main_v33 (broadcastInDim S8192x1600 ![0, 1] bcast_S1x1600_S8192x1600_0_1 : (⟨S1x1600, .f32⟩ : BufTy).Contents (Elt F) → (⟨S8192x1600, .f32⟩ : BufTy).Contents (Elt F)),
    binary main_v31 main_v33 main_v34 (addf : (⟨S8192x1600, .f32⟩ : BufTy).Contents (Elt F) → (⟨S8192x1600, .f32⟩ : BufTy).Contents (Elt F) → (⟨S8192x1600, .f32⟩ : BufTy).Contents (Elt F)) ]

theorem ops_split : (ops : List (HloOp τ sig (Elt F))) = ops1 ++ (ops2 ++ ops3) := rfl
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub ..⟩

/-- The contents after two stretches in a row are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## What each stretch computes -/

/-- The scaled scores: queries times transposed keys, times the constant. -/
def scores (x0 : (⟨S8192x2048, .f32⟩ : BufTy).Contents (Elt F)) (x1 : (⟨S1600x1024, .f32⟩ : BufTy).Contents (Elt F)) (x3 : (⟨S1024x2048, .f32⟩ : BufTy).Contents (Elt F)) (x4 : (⟨S1024, .f32⟩ : BufTy).Contents (Elt F))
    (x5 : (⟨S1024x1024, .f32⟩ : BufTy).Contents (Elt F)) (x6 : (⟨S1024, .f32⟩ : BufTy).Contents (Elt F)) : (⟨S8192x1600, .f32⟩ : BufTy).Contents (Elt F) :=
  mulf (Host.dotGeneral dot_S8192x1024_S1024x1600_S8192x1600_1_0_0_1_n_n none
      (addf (Host.dotGeneral dot_S8192x2048_S2048x1024_S8192x1024_1_0_0_1_n_n none x0 (transpose S2048x1024 [1, 0] x3 transposes_S1024x2048_S2048x1024_1_0))
        (broadcastInDim S8192x1024 ![0, 1] bcast_S1x1024_S8192x1024_0_1 (broadcastInDim S1x1024 ![1] bcast_S1024_S1x1024_1 x4)))
      (transpose S1024x1600 [1, 0]
        (addf (Host.dotGeneral dot_S1600x1024_S1024x1024_S1600x1024_1_0_0_1_n_n none x1 (transpose S1024x1024 [1, 0] x5 transposes_S1024x1024_S1024x1024_1_0))
          (broadcastInDim S1600x1024 ![0, 1] bcast_S1x1024_S1600x1024_0_1 (broadcastInDim S1x1024 ![1] bcast_S1024_S1x1024_1 x6)))
        transposes_S1600x1024_S1024x1600_1_0))
    (broadcastInDim S8192x1600 ![] bcast_S_S8192x1600 (constant S_ .f32 0x3D000000#32))

/-- The exponentials of the scores shifted by their row maxima. -/
def shifted (s : (⟨S8192x1600, .f32⟩ : BufTy).Contents (Elt F)) : (⟨S8192x1600, .f32⟩ : BufTy).Contents (Elt F) :=
  Host.exp (subf s (broadcastInDim S8192x1600 ![0, 1] bcast_S8192x1_S8192x1600_0_1 (broadcastInDim S8192x1 ![0] bcast_S8192_S8192x1_0
    (maximumf (broadcastInDim S8192 ![] bcast_S_S8192 (constant S_ .f32 0xFF800000#32))
      (Host.reduce FloatOps.maximumf s (constant S_ .f32 0xFF800000#32) reducesTo_S8192x1600_S8192_d1 h_S_)))))

/-- The softmax of the scores' rows times the prior row. -/
def weights (s : (⟨S8192x1600, .f32⟩ : BufTy).Contents (Elt F)) (x2 : (⟨S1600, .f32⟩ : BufTy).Contents (Elt F)) : (⟨S8192x1600, .f32⟩ : BufTy).Contents (Elt F) :=
  mulf (Host.divf (shifted s) (broadcastInDim S8192x1600 ![0, 1] bcast_S8192x1_S8192x1600_0_1 (broadcastInDim S8192x1 ![0] bcast_S8192_S8192x1_0
      (Host.reduceAdd (shifted s) (constant S_ .f32 0x00000000#32) reducesTo_S8192x1600_S8192_d1 h_S_))))
    (broadcastInDim S8192x1600 ![0, 1] bcast_S1x1600_S8192x1600_0_1 (broadcastInDim S1x1600 ![1] bcast_S1600_S1x1600_1 x2))

/-- The mixture: weights times the dictionary. -/
def mixture (w : (⟨S8192x1600, .f32⟩ : BufTy).Contents (Elt F)) (x1 : (⟨S1600x1024, .f32⟩ : BufTy).Contents (Elt F)) : (⟨S8192x1024, .f32⟩ : BufTy).Contents (Elt F) :=
  Host.dotGeneral dot_S8192x1600_S1600x1024_S8192x1024_1_0_0_1_n_n none w x1

/-- The read-out: features joined with the mixture, times the transposed weights, plus the bias row. -/
def readout (x0 : (⟨S8192x2048, .f32⟩ : BufTy).Contents (Elt F)) (z : (⟨S8192x1024, .f32⟩ : BufTy).Contents (Elt F)) (x7 : (⟨S1600x3072, .f32⟩ : BufTy).Contents (Elt F)) (x8 : (⟨S1600, .f32⟩ : BufTy).Contents (Elt F)) : (⟨S8192x1600, .f32⟩ : BufTy).Contents (Elt F) :=
  addf (Host.dotGeneral dot_S8192x3072_S3072x1600_S8192x1600_1_0_0_1_n_n none
      (concatenate S8192x3072 1 [⟨S8192x2048, x0⟩, ⟨S8192x1024, z⟩] concatenates_S8192x2048_S8192x1024_S8192x3072_d1)
      (transpose S3072x1600 [1, 0] x7 transposes_S1600x3072_S3072x1600_1_0))
    (broadcastInDim S8192x1600 ![0, 1] bcast_S1x1600_S8192x1600_0_1 (broadcastInDim S1x1600 ![1] bcast_S1600_S1x1600_1 x8))

/-! ## The stretches, each from any contents -/

section Stretches
variable (V : Valuation τ sig (Elt F))

theorem s1_scores : after ops1 V (Proc.devRef .tc main_v13)
    = scores (V (Proc.devRef .tc main_arg0)) (V (Proc.devRef .tc main_arg1)) (V (Proc.devRef .tc main_arg3))
        (V (Proc.devRef .tc main_arg4)) (V (Proc.devRef .tc main_arg5)) (V (Proc.devRef .tc main_arg6)) := by
  unfold scores; after_results_simp <;> rfl
theorem s1_arg0 : after ops1 V (Proc.devRef .tc main_arg0) = V (Proc.devRef .tc main_arg0) := by after_results_simp
theorem s1_arg1 : after ops1 V (Proc.devRef .tc main_arg1) = V (Proc.devRef .tc main_arg1) := by after_results_simp
theorem s1_arg2 : after ops1 V (Proc.devRef .tc main_arg2) = V (Proc.devRef .tc main_arg2) := by after_results_simp
theorem s1_arg7 : after ops1 V (Proc.devRef .tc main_arg7) = V (Proc.devRef .tc main_arg7) := by after_results_simp
theorem s1_arg8 : after ops1 V (Proc.devRef .tc main_arg8) = V (Proc.devRef .tc main_arg8) := by after_results_simp

theorem s2_weights : after ops2 V (Proc.devRef .tc main_v27)
    = weights (V (Proc.devRef .tc main_v13)) (V (Proc.devRef .tc main_arg2)) := by
  unfold weights shifted; after_results_simp <;> rfl
theorem s2_arg0 : after ops2 V (Proc.devRef .tc main_arg0) = V (Proc.devRef .tc main_arg0) := by after_results_simp
theorem s2_arg1 : after ops2 V (Proc.devRef .tc main_arg1) = V (Proc.devRef .tc main_arg1) := by after_results_simp
theorem s2_arg7 : after ops2 V (Proc.devRef .tc main_arg7) = V (Proc.devRef .tc main_arg7) := by after_results_simp
theorem s2_arg8 : after ops2 V (Proc.devRef .tc main_arg8) = V (Proc.devRef .tc main_arg8) := by after_results_simp

theorem s3_mixture : after ops3 V (Proc.devRef .tc main_v28)
    = mixture (V (Proc.devRef .tc main_v27)) (V (Proc.devRef .tc main_arg1)) := by
  unfold mixture; after_results_simp <;> rfl
theorem s3_readout : after ops3 V (Proc.devRef .tc main_v34)
    = readout (V (Proc.devRef .tc main_arg0)) (mixture (V (Proc.devRef .tc main_v27)) (V (Proc.devRef .tc main_arg1)))
        (V (Proc.devRef .tc main_arg7)) (V (Proc.devRef .tc main_arg8)) := by
  unfold readout mixture; after_results_simp <;> rfl

/-- The mixture buffer after the whole program. -/
theorem fold_mixture : after ops V (Proc.devRef .tc main_v28)
    = mixture (weights (scores (V (Proc.devRef .tc main_arg0)) (V (Proc.devRef .tc main_arg1)) (V (Proc.devRef .tc main_arg3))
        (V (Proc.devRef .tc main_arg4)) (V (Proc.devRef .tc main_arg5)) (V (Proc.devRef .tc main_arg6))) (V (Proc.devRef .tc main_arg2)))
        (V (Proc.devRef .tc main_arg1)) := by
  rw [ops_split, after_append, after_append, s3_mixture, s2_weights, s2_arg1, s1_scores, s1_arg1, s1_arg2]

/-- The read-out buffer after the whole program. -/
theorem fold_readout : after ops V (Proc.devRef .tc main_v34)
    = readout (V (Proc.devRef .tc main_arg0))
        (mixture (weights (scores (V (Proc.devRef .tc main_arg0)) (V (Proc.devRef .tc main_arg1)) (V (Proc.devRef .tc main_arg3))
          (V (Proc.devRef .tc main_arg4)) (V (Proc.devRef .tc main_arg5)) (V (Proc.devRef .tc main_arg6))) (V (Proc.devRef .tc main_arg2)))
          (V (Proc.devRef .tc main_arg1)))
        (V (Proc.devRef .tc main_arg7)) (V (Proc.devRef .tc main_arg8)) := by
  rw [ops_split, after_append, after_append, s3_readout, s2_weights, s2_arg0, s2_arg1, s2_arg7, s2_arg8,
    s1_scores, s1_arg0, s1_arg1, s1_arg2, s1_arg7, s1_arg8]

end Stretches

/-! ## The run -/

set_option maxHeartbeats 2000000 in
/-- From any memory with zero counters every weakly fair execution of the reference terminates with the two results at
    `readout` and `mixture` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = readout (m ((c.tc : Thread nD τ).loc main_arg0))
            (mixture (weights (scores (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6))) (m ((c.tc : Thread nD τ).loc main_arg2))) (m ((c.tc : Thread nD τ).loc main_arg1)))
            (m ((c.tc : Thread nD τ).loc main_arg7)) (m ((c.tc : Thread nD τ).loc main_arg8))
      ∧ r.2.mem ((c.tc : Thread nD τ).loc main_v28)
        = mixture (weights (scores (m ((c.tc : Thread nD τ).loc main_arg0)) (m ((c.tc : Thread nD τ).loc main_arg1))
              (m ((c.tc : Thread nD τ).loc main_arg3)) (m ((c.tc : Thread nD τ).loc main_arg4)) (m ((c.tc : Thread nD τ).loc main_arg5))
              (m ((c.tc : Thread nD τ).loc main_arg6))) (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v34).trans (fold_readout _),
      (h c main_v28).trans (fold_mixture _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs main (fun _ => ops) main_eq (fun _ => ops_sub) m ρ)

end Cert.Deconf.Ref

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«118240_j8727373546112_2_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.Reference.lean ====
/-
  The reference's three stretches, read at one entry on the extended reals, are the specification's functions.

  The scores are a plain product of the query layer with the transposed key layer times the constant; the weights are
  the host's softmax of each score row times the prior row; the mixture is a plain product with the dictionary; the
  read-out contracts the features joined with the mixture against the transposed weights — a sum over 3072 columns
  that is the sum over the first 2048 (the features) plus the sum over the last 1024 (the mixture) — plus the bias row.
-/
import proofs.«118240_j8727373546112_2_alg».proof.Proof.RefRun
import proofs.«118240_j8727373546112_2_alg».proof.Proof.Spec
import proofs.«118240_j8727373546112_2_alg».proof.Proof.LibHostReads
import proofs.«118240_j8727373546112_2_alg».proof.Proof.LibHostRowSoftmax
import proofs.«118240_j8727373546112_2_alg».proof.Proof.LibHostLayout

noncomputable section

open scoped BigOperators

namespace Cert.Deconf.Ref

open Idealize.ShloMosaic Idealize.ShloMosaic.ValueIdx Cert.ReferenceIdeal Cert.ReferenceIdeal.Gen
open Cert.Deconf Cert.RowSoftmax Cert.HostLayout

variable (x0 : FVec Ideal S8192x2048 .f32) (x1 : FVec Ideal S1600x1024 .f32) (x2 : FVec Ideal S1600 .f32)
  (x3 : FVec Ideal S1024x2048 .f32) (x4 : FVec Ideal S1024 .f32) (x5 : FVec Ideal S1024x1024 .f32) (x6 : FVec Ideal S1024 .f32)
  (x7 : FVec Ideal S1600x3072 .f32) (x8 : FVec Ideal S1600 .f32)

/-- The query layer at (n, e). -/
theorem queries_apply (n : Fin 8192) (e : Fin 1024) :
    addf (Host.dotGeneral (F := Ideal) dot_S8192x2048_S2048x1024_S8192x1024_1_0_0_1_n_n none x0
        (transpose S2048x1024 [1, 0] x3 transposes_S1024x2048_S2048x1024_1_0))
      (broadcastInDim S8192x1024 ![0, 1] bcast_S1x1024_S8192x1024_0_1 (broadcastInDim S1x1024 ![1] bcast_S1024_S1x1024_1 x4)) (ix2 n e)
      = query x0 x3 x4 n e := by
  unfold query
  rw [addf_apply]
  refine congrArg₂ (· + ·) ?_ (biasRow_apply x4 _ _ n e)
  refine (Cert.LibHostReads.dotGeneral_plain_apply 8192 2048 1024 none _ _ n e).trans ?_
  exact Finset.sum_congr rfl fun f _ => congrArg (x0 (ix2 n f) * ·) (transpose2_apply x3 _ f e)

/-- The key layer at (k, e). -/
theorem keys_apply (k : Fin 1600) (e : Fin 1024) :
    addf (Host.dotGeneral (F := Ideal) dot_S1600x1024_S1024x1024_S1600x1024_1_0_0_1_n_n none x1
        (transpose S1024x1024 [1, 0] x5 transposes_S1024x1024_S1024x1024_1_0))
      (broadcastInDim S1600x1024 ![0, 1] bcast_S1x1024_S1600x1024_0_1 (broadcastInDim S1x1024 ![1] bcast_S1024_S1x1024_1 x6)) (ix2 k e)
      = key x1 x5 x6 k e := by
  unfold key
  rw [addf_apply]
  refine congrArg₂ (· + ·) ?_ (biasRow_apply x6 _ _ k e)
  refine (Cert.LibHostReads.dotGeneral_plain_apply 1600 1024 1024 none _ _ k e).trans ?_
  exact Finset.sum_congr rfl fun d _ => congrArg (x1 (ix2 k d) * ·) (transpose2_apply x5 _ d e)

/-- The scores at (n, k). -/
theorem scores_apply (n : Fin 8192) (k : Fin 1600) :
    scores (F := Ideal) x0 x1 x3 x4 x5 x6 (ix2 n k) = score x0 x1 x3 x4 x5 x6 n k := by
  unfold scores score
  rw [mulf_apply]
  refine congrArg₂ (· * ·) ?_ ((scalar_apply _ _ _).trans rfl)
  refine (Cert.LibHostReads.dotGeneral_plain_apply 8192 1024 1600 none _ _ n k).trans ?_
  refine Finset.sum_congr rfl fun e _ => congrArg₂ (· * ·) (queries_apply x0 x3 x4 n e) ?_
  exact (transpose2_apply _ _ e k).trans (keys_apply x1 x5 x6 k e)

/-- The weights at (n, k). -/
theorem weights_apply (n : Fin 8192) (k : Fin 1600) :
    weights (F := Ideal) (scores (F := Ideal) x0 x1 x3 x4 x5 x6) x2 (ix2 n k) = attn x0 x1 x3 x4 x5 x6 n k * x2 (ix1 k) := by
  unfold weights shifted
  rw [mulf_apply]
  refine congrArg₂ (· * ·) ?_ (biasRow_apply x2 _ _ n k)
  refine (Cert.HostRowSoftmax.hostSoftmax_apply (scores (F := Ideal) x0 x1 x3 x4 x5 x6) reducesTo_S8192x1600_S8192_d1 (by decide) h_S_
    bcast_S_S8192 bcast_S8192_S8192x1_0 bcast_S8192x1_S8192x1600_0_1 n k).trans ?_
  rw [softmax2_ix2]
  unfold attn
  exact congrArg (fun r => rowSoftmax r k) (funext fun k' => scores_apply x0 x1 x3 x4 x5 x6 n k')

/-- The mixture is the specification's. -/
theorem mixture_eq :
    mixture (F := Ideal) (weights (F := Ideal) (scores (F := Ideal) x0 x1 x3 x4 x5 x6) x2) x1 = mixArr x0 x1 x2 x3 x4 x5 x6 := by
  funext i
  obtain ⟨n, d, rfl⟩ : ∃ (n : Fin 8192) (d : Fin 1024), i = ix2 n d := ⟨i 0, i 1, eq_ix2 i⟩
  rw [mixArr_ix2]
  unfold mixture mix
  refine (Cert.LibHostReads.dotGeneral_plain_apply 8192 1600 1024 none _ _ n d).trans ?_
  exact Finset.sum_congr rfl fun k _ => congrArg (· * x1 (ix2 k d)) (weights_apply x0 x1 x2 x3 x4 x5 x6 n k)

/-- The read-out is the specification's. -/
theorem readout_eq :
    readout (F := Ideal) x0 (mixArr x0 x1 x2 x3 x4 x5 x6) x7 x8 = logitArr x0 x1 x2 x3 x4 x5 x6 x7 x8 := by
  funext i
  obtain ⟨n, j, rfl⟩ : ∃ (n : Fin 8192) (j : Fin 1600), i = ix2 n j := ⟨i 0, i 1, eq_ix2 i⟩
  rw [logitArr_ix2]
  unfold readout logit
  rw [addf_apply]
  refine congrArg₂ (· + ·) ?_ (biasRow_apply x8 _ _ n j)
  refine (Cert.LibHostReads.dotGeneral_plain_apply 8192 3072 1600 none _ _ n j).trans ?_
  rw [sum_split]
  refine congrArg₂ (· + ·) (Finset.sum_congr rfl fun f _ => congrArg₂ (· * ·) ?_ (transpose2_apply x7 _ (lo f) j))
    (Finset.sum_congr rfl fun d _ => congrArg₂ (· * ·) ?_ (transpose2_apply x7 _ (hi d) j))
  · refine concatenate_pair_apply_left (1 : Fin 2) x0 (mixArr x0 x1 x2 x3 x4 x5 x6) concatenates_S8192x2048_S8192x1024_S8192x3072_d1
      (ix2 n (lo f)) rfl (ix2 n f) fun b => ?_
    match b with
    | ⟨0, _⟩ => rfl
    | ⟨1, _⟩ => rfl
  · refine (concatenate_pair_apply_right (1 : Fin 2) x0 (mixArr x0 x1 x2 x3 x4 x5 x6) concatenates_S8192x2048_S8192x1024_S8192x3072_d1
      (ix2 n (hi d)) rfl rfl (ix2 n d) (fun b hb => ?_) ?_).trans (mixArr_ix2 x0 x1 x2 x3 x4 x5 x6 n d)
    · match b with
      | ⟨0, _⟩ => rfl
      | ⟨1, _⟩ => exact absurd rfl hb
    · show d.val + 2048 = 2048 + d.val
      omega

end Cert.Deconf.Ref

end
-- ==== Proof.lean ====
/-
  The certificate's claims for the dictionary cross-attention kernel against its jnp reference.

  On the extended reals both programs compute, from the nine argument arrays, the prior-weighted mixture of dictionary
  rows under a softmax attention and the linear read-out of the features joined with that mixture (Proof/Spec.lean). The
  kernel program does it in two calls — the keys once, then 32 blocks of 256 rows — with the weight matrices transposed on
  the host and every matrix product fed through a change of float format that is the identity here; its read-out splits
  the contraction over the 3072 joined columns at column 2048, where the reference contracts the joined array whole. The
  two are equal because a sum over 3072 indices is the sum over the first 2048 plus the sum over the last 1024, which
  needs no finiteness: the precondition is never opened. The frames of the two kernel programs are the generated ones;
  the reference's frame is its run with the results dropped; the idealization rewrote nothing.
-/
import proofs.«118240_j8727373546112_2_alg».proof.Defs
import proofs.«118240_j8727373546112_2_alg».proof.Proof.Gen.Kernel
import proofs.«118240_j8727373546112_2_alg».proof.Proof.Gen.Kernel.Skeleton
import proofs.«118240_j8727373546112_2_alg».proof.Proof.Gen.Kernel.Launch
import proofs.«118240_j8727373546112_2_alg».proof.Proof.Gen.Kernel.Points
import proofs.«118240_j8727373546112_2_alg».proof.Proof.Gen.Kernel.Frame
import proofs.«118240_j8727373546112_2_alg».proof.Proof.Gen.KernelIdeal
import proofs.«118240_j8727373546112_2_alg».proof.Proof.Gen.KernelIdeal.Skeleton
import proofs.«118240_j8727373546112_2_alg».proof.Proof.Gen.KernelIdeal.Launch
import proofs.«118240_j8727373546112_2_alg».proof.Proof.Gen.KernelIdeal.Points
import proofs.«118240_j8727373546112_2_alg».proof.Proof.Gen.KernelIdeal.Frame
import proofs.«118240_j8727373546112_2_alg».proof.Proof.Gen.ReferenceIdeal
import proofs.«118240_j8727373546112_2_alg».proof.Proof.Gen.Pre_finite_inputs
import proofs.«118240_j8727373546112_2_alg».proof.Proof.KernelRun
import proofs.«118240_j8727373546112_2_alg».proof.Proof.Reference
import Idealize.ShloMosaic.Adequacy
import Idealize.ShloMosaic.Init

noncomputable section

namespace Cert.Proof

open Idealize.ShloMosaic Idealize.ShloMosaic.TcCoe Idealize.SL.Sem Cert.Deconf

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.Deconf.Ref.run (F := Ideal) m ρ)

/-- Both programs end with the read-out array and the mixture array of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => logitArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => mixArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.Deconf.Kern.run m ρ, ?_⟩
  refine (θ_run Cert.ReferenceIdeal.defs _ _).mono (fun _ h c => ?_) (Cert.Deconf.Ref.run (F := Ideal) m' ρ')
  obtain ⟨e0, e1, e2, e3, e4, e5, e6, e7, e8⟩ := hagree c
  refine ⟨(h c).1.trans ?_, (h c).2.1.trans ?_, (h c).2.2⟩
  · rw [e0, e1, e2, e3, e4, e5, e6, e7, e8]
    exact (congrArg (fun z => Cert.Deconf.Ref.readout (F := Ideal) (m ((c.tc : Thread Cert.KernelIdeal.nD Cert.KernelIdeal.τ).loc Cert.KernelIdeal.main_arg0)) z (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (Cert.Deconf.Ref.mixture_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))).trans
      (Cert.Deconf.Ref.readout_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
  · rw [e0, e1, e2, e3, e4, e5, e6]
    exact Cert.Deconf.Ref.mixture_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
